-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32x4 : Shape := ⟨3, ![40000, 32, 4]⟩
abbrev S64x9 : Shape := ⟨2, ![64, 9]⟩
abbrev S64 : Shape := ⟨1, ![64]⟩
abbrev S40000 : Shape := ⟨1, ![40000]⟩
abbrev S40000x4 : Shape := ⟨2, ![40000, 4]⟩
abbrev S_ : Shape := ⟨0, ![]⟩

class Facts : Prop where
  bcast_S_S40000x32x4 : S_.BroadcastsInDim S40000x32x4 (![] : Fin 0 → Fin S40000x32x4.rank)
  reducesTo_S40000x32x4_S_d0_1_2 : S40000x32x4.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oge main_arg5 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v28 main_v31
  main_v32

def fn {F : FTy → Type} [FloatOps F] (main_arg0 : FVec F S40000x32x4 .f32) (main_arg1 : FVec F S64x9 .f32) (main_arg2 : FVec F S64 .f32) (main_arg3 : FVec F S64 .f32) (main_arg4 : FVec F S64 .f32) (main_arg5 : FVec F S64 .f32) (main_arg6 : IVec S40000 32) (main_arg7 : IVec S40000x4 32) : IVec S_ 1 :=
  let main_v0 : FVec F S40000x32x4 .f32 := Host.absf main_arg0
  let main_cst : FVec F S_ .f32 := constant S_ .f32 0x7F800000#32
  let main_v1 : FVec F S40000x32x4 .f32 := broadcastInDim S40000x32x4 ![] bcast_S_S40000x32x4 main_cst
  let main_v2 : IVec S40000x32x4 1 := cmpf .olt main_v0 main_v1
  let main_c : IVec S_ 1 := constantI S_ 1 1#1
  let main_v3 : IVec S_ 1 := (fun x v => Host.reduce IntOp.andi x v reducesTo_S40000x32x4_S_d0_1_2 h_S_) main_v2 main_c
  let main_v4 : FVec F S64x9 .f32 := Host.absf main_arg1
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S40000x32x4 : Shape := ⟨3, ![40000, 32, 4]⟩
abbrev S64x9 : Shape := ⟨2, ![64, 9]⟩
abbrev S64 : Shape := ⟨1, ![64]⟩
abbrev S40000 : Shape := ⟨1, ![40000]⟩
abbrev S40000x4 : Shape := ⟨2, ![40000, 4]⟩
abbrev S40000x32x1 : Shape := ⟨3, ![40000, 32, 1]⟩
abbrev S40000x32 : Shape := ⟨2, ![40000, 32]⟩
abbrev S40000x1 : Shape := ⟨2, ![40000, 1]⟩
abbrev S_ : Shape := ⟨0, ![]⟩
abbrev S64x1 : Shape := ⟨2, ![64, 1]⟩
abbrev S1x64 : Shape := ⟨2, ![1, 64]⟩
abbrev S7x64 : Shape := ⟨2, ![7, 64]⟩
abbrev S40000x64 : Shape := ⟨2, ![40000, 64]⟩
abbrev S400x32 : Shape := ⟨2, ![400, 32]⟩
abbrev S400x1 : Shape := ⟨2, ![400, 1]⟩
abbrev S400x64 : Shape := ⟨2, ![400, 64]⟩
abbrev S400 : Shape := ⟨1, ![400]⟩
abbrev S400x32x1 : Shape := ⟨3, ![400, 32, 1]⟩
abbrev S1x1x64 : Shape := ⟨3, ![1, 1, 64]⟩
abbrev S400x32x64 : Shape := ⟨3, ![400, 32, 64]⟩

abbrev nBuf : Space → Nat
  | .hbm => 75
  | .vmem => 19
  | .smem => 0
  | _ => 0

abbrev bufTy : (tb : Table) → Fin (tcTables nBuf tb) → BufTy
  | .hbm, ⟨0, _⟩ => ⟨S40000x32x4, .f32⟩
  | .hbm, ⟨1, _⟩ => ⟨S64x9, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S40000, .i32⟩
  | .hbm, ⟨7, _⟩ => ⟨S40000x4, .i32⟩
  | .hbm, ⟨8, _⟩ => ⟨S40000x32x1, .f32⟩
  | .hbm, ⟨9, _⟩ => ⟨S40000x32, .f32⟩
  | .hbm, ⟨10, _⟩ => ⟨S40000x32x1, .f32⟩
  | .hbm, ⟨11, _⟩ => ⟨S40000x32, .f32⟩
  | .hbm, ⟨12, _⟩ => ⟨S40000x32x1, .f32⟩
  | .hbm, ⟨13, _⟩ => ⟨S40000x32, .f32⟩
  | .hbm, ⟨14, _⟩ => ⟨S40000x32x1, .f32⟩
  | .hbm, ⟨15, _⟩ => ⟨S40000x32, .f32⟩
  | .hbm, ⟨16, _⟩ => ⟨S40000x1, .i32⟩
  | .hbm, ⟨17, _⟩ => ⟨S40000, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .f32⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S40000x1, .f32⟩
  | .hbm, ⟨26, _⟩ => ⟨S40000x1, .i32⟩
  | .hbm, ⟨27, _⟩ => ⟨S40000, .i32⟩
  | .hbm, ⟨28, _⟩ => ⟨S40000, .f32⟩
  | .hbm, ⟨29, _⟩ => ⟨S_, .f32⟩
  | .hbm, ⟨30, _⟩ => ⟨S40000, .f32⟩
  | .hbm, ⟨31, _⟩ => ⟨S40000, .f32⟩
  | .hbm, ⟨32, _⟩ => ⟨S_, .f32⟩
  | .hbm, ⟨33, _⟩ => ⟨S40000, .f32⟩
  | .hbm, ⟨34, _⟩ => ⟨S40000, .f32⟩
  | .hbm, ⟨35, _⟩ => ⟨S40000x1, .f32⟩
  | .hbm, ⟨36, _⟩ => ⟨S40000x1, .i32⟩
  | .hbm, ⟨37, _⟩ => ⟨S64x1, .f32⟩
  | .hbm, ⟨38, _⟩ => ⟨S64, .f32⟩
  | .hbm, ⟨39, _⟩ => ⟨S64x1, .f32⟩
  | .hbm, ⟨40, _⟩ => ⟨S64, .f32⟩
  | .hbm, ⟨41, _⟩ => ⟨S64, .f32⟩
  | .hbm, ⟨42, _⟩ => ⟨S64x1, .f32⟩
  | .hbm, ⟨43, _⟩ => ⟨S64, .f32⟩
  | .hbm, ⟨44, _⟩ => ⟨S64x1, .f32⟩
  | .hbm, ⟨45, _⟩ => ⟨S64, .f32⟩
  | .hbm, ⟨46, _⟩ => ⟨S64, .f32⟩
  | .hbm, ⟨47, _⟩ => ⟨S64x1, .f32⟩
  | .hbm, ⟨48, _⟩ => ⟨S64, .f32⟩
  | .hbm, ⟨49, _⟩ => ⟨S64x1, .f32⟩
  | .hbm, ⟨50, _⟩ => ⟨S64, .f32⟩
  | .hbm, ⟨51, _⟩ => ⟨S64x1, .f32⟩
  | .hbm, ⟨52, _⟩ => ⟨S64, .f32⟩
  | .hbm, ⟨53, _⟩ => ⟨S64x1, .f32⟩
  | .hbm, ⟨54, _⟩ => ⟨S64, .f32⟩
  | .hbm, ⟨55, _⟩ => ⟨S64x1, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S7x64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S1x64, .f32⟩
  | .hbm, ⟨71, _⟩ => ⟨S64, .f32⟩
  | .hbm, ⟨72, _⟩ => ⟨S64, .f32⟩
  | .hbm, ⟨73, _⟩ => ⟨S1x64, .f32⟩
  | .hbm, ⟨74, _⟩ => ⟨S40000x64, .f32⟩
  | .local _ .vmem, ⟨0, _⟩ => ⟨S400x32, .f32⟩
  | .local _ .vmem, ⟨1, _⟩ => ⟨S400x32, .f32⟩
  | .local _ .vmem, ⟨2, _⟩ => ⟨S400x32, .f32⟩
  | .local _ .vmem, ⟨3, _⟩ => ⟨S400x32, .f32⟩
  | .local _ .vmem, ⟨4, _⟩ => ⟨S400x32, .f32⟩
  | .local _ .vmem, ⟨5, _⟩ => ⟨S400x32, .f32⟩
  | .local _ .vmem, ⟨6, _⟩ => ⟨S400x32, .f32⟩
  | .local _ .vmem, ⟨7, _⟩ => ⟨S400x32, .f32⟩
  | .local _ .vmem, ⟨8, _⟩ => ⟨S400x1, .f32⟩
  | .local _ .vmem, ⟨9, _⟩ => ⟨S400x1, .f32⟩
  | .local _ .vmem, ⟨10, _⟩ => ⟨S400x1, .f32⟩
  | .local _ .vmem, ⟨11, _⟩ => ⟨S400x1, .f32⟩
  | .local _ .vmem, ⟨12, _⟩ => ⟨S400x1, .i32⟩
  | .local _ .vmem, ⟨13, _⟩ => ⟨S400x1, .i32⟩
  | .local _ .vmem, ⟨14, _⟩ => ⟨S7x64, .f32⟩
  | .local _ .vmem, ⟨15, _⟩ => ⟨S1x64, .f32⟩
  | .local _ .vmem, ⟨16, _⟩ => ⟨S1x64, .f32⟩
  | .local _ .vmem, ⟨17, _⟩ => ⟨S400x64, .f32⟩
  | .local _ .vmem, ⟨18, _⟩ => ⟨S400x64, .f32⟩
  | _, _ => ⟨S40000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S7x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S40000x32x4_S40000x32x1_0_0_0 : S40000x32x4.Slices ![0, 0, 0] S40000x32x1
  shapeCasts_S40000x32x1_S40000x32 : S40000x32x1.ShapeCasts S40000x32
  slices_S40000x32x4_S40000x32x1_0_0_1 : S40000x32x4.Slices ![0, 0, 1] S40000x32x1
  slices_S40000x32x4_S40000x32x1_0_0_2 : S40000x32x4.Slices ![0, 0, 2] S40000x32x1
  slices_S40000x32x4_S40000x32x1_0_0_3 : S40000x32x4.Slices ![0, 0, 3] S40000x32x1
  slices_S40000x4_S40000x1_0_3 : S40000x4.Slices ![0, 3] S40000x1
  shapeCasts_S40000x1_S40000 : S40000x1.ShapeCasts S40000
  bcast_S_S40000 : S_.BroadcastsInDim S40000 (![] : Fin 0 → Fin S40000.rank)
  shapeCasts_S40000_S40000x1 : S40000.ShapeCasts S40000x1
  slices_S40000x4_S40000x1_0_2 : S40000x4.Slices ![0, 2] S40000x1
  slices_S64x9_S64x1_0_0 : S64x9.Slices ![0, 0] S64x1
  shapeCasts_S64x1_S64 : S64x1.ShapeCasts S64
  slices_S64x9_S64x1_0_7 : S64x9.Slices ![0, 7] S64x1
  slices_S64x9_S64x1_0_1 : S64x9.Slices ![0, 1] S64x1
  slices_S64x9_S64x1_0_8 : S64x9.Slices ![0, 8] S64x1
  slices_S64x9_S64x1_0_2 : S64x9.Slices ![0, 2] S64x1
  slices_S64x9_S64x1_0_3 : S64x9.Slices ![0, 3] S64x1
  slices_S64x9_S64x1_0_4 : S64x9.Slices ![0, 4] S64x1
  slices_S64x9_S64x1_0_5 : S64x9.Slices ![0, 5] S64x1
  slices_S64x9_S64x1_0_6 : S64x9.Slices ![0, 6] S64x1
  bcast_S64_S1x64_1 : S64.BroadcastsInDim S1x64 (![1] : Fin 1 → Fin S1x64.rank)
  concatenates_S1x64_S1x64_S1x64_S1x64_S1x64_S1x64_S1x64_S7x64_d0 : Shape.Concatenates [S1x64, S1x64, S1x64, S1x64, S1x64, S1x64, S1x64] S7x64 0
  bcast_S_S64 : S_.BroadcastsInDim S64 (![] : Fin 0 → Fin S64.rank)
  shapeCasts_S64_S1x64 : S64.ShapeCasts S1x64
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S400x1_S400x1_0_0 : ∀ a, (![0, 0] : Fin 2 → Nat) a + S400x1.size a ≤ S400x1.size a
  h_S400x1 : 0 < S400x1.numel
  shapeCasts_S400x1_S400x1 : S400x1.ShapeCasts S400x1
  reduces_S400x32_S400 : S400x32.Reduces [1] S400
  shapeCasts_S400_S400x1 : S400.ShapeCasts S400x1
  broadcasts_S400x1_S400x32 : S400x1.Broadcasts S400x32
  iota_S400x32_d1_w32 : S400x32.Iotas .tc 32 [1]
  natLt_1_32 : 1 < 32
  inb_S7x64_S7x64_0_0 : ∀ a, (![0, 0] : Fin 2 → Nat) a + S7x64.size a ≤ S7x64.size a
  h_S7x64 : 0 < S7x64.numel
  shapeCasts_S7x64_S7x64 : S7x64.ShapeCasts S7x64
  slices_S7x64_o0_0_S1x64 : S7x64.Slices ![0, 0] S1x64
  shapeCasts_S1x64_S64 : S1x64.ShapeCasts S64
  slices_S7x64_o1_0_S1x64 : S7x64.Slices ![1, 0] S1x64
  slices_S7x64_o2_0_S1x64 : S7x64.Slices ![2, 0] S1x64
  slices_S7x64_o3_0_S1x64 : S7x64.Slices ![3, 0] S1x64
  slices_S7x64_o4_0_S1x64 : S7x64.Slices ![4, 0] S1x64
  slices_S7x64_o5_0_S1x64 : S7x64.Slices ![5, 0] S1x64
  slices_S7x64_o6_0_S1x64 : S7x64.Slices ![6, 0] S1x64
  shapeCasts_S400x32_S400x32x1 : S400x32.ShapeCasts S400x32x1
  shapeCasts_S64_S1x1x64 : S64.ShapeCasts S1x1x64
  broadcasts_S400x32x1_S400x32x64 : S400x32x1.Broadcasts S400x32x64
  broadcasts_S1x1x64_S400x32x64 : S1x1x64.Broadcasts S400x32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S400x32x64_S400x64 : S400x32x64.Reduces [1] S400x64
  inb_S400x64_S400x64_0_0 : ∀ a, (![0, 0] : Fin 2 → Nat) a + S400x64.size a ≤ S400x64.size a
  h_S400x64 : 0 < S400x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32.size a ≤ S40000x32.size a
  hwx0_0 : ∀ i : grid0.Coords, EltTy.bits .f32 = 32 ∨ (Rect.block (s := S40000x32) S400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32.size a ≤ S40000x32.size a
  hwx0_1 : ∀ i : grid0.Coords, EltTy.bits .f32 = 32 ∨ (Rect.block (s := S40000x32) S400x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32.size a ≤ S40000x32.size a
  hwx0_2 : ∀ i : grid0.Coords, EltTy.bits .f32 = 32 ∨ (Rect.block (s := S40000x32) S400x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x32.size a ≤ S40000x32.size a
  hwx0_3 : ∀ i : grid0.Coords, EltTy.bits .f32 = 32 ∨ (Rect.block (s := S40000x32) S400x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S40000x1.size a
  hwx0_4 : ∀ i : grid0.Coords, EltTy.bits .f32 = 32 ∨ (Rect.block (s := S40000x1) S400x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x1.size a ≤ S40000x1.size a
  hwx0_5 : ∀ i : grid0.Coords, EltTy.bits .f32 = 32 ∨ (Rect.block (s := S40000x1) S400x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x1.size a ≤ S40000x1.size a
  hwx0_6 : ∀ i : grid0.Coords, EltTy.bits .i32 = 32 ∨ (Rect.block (s := S40000x1) S400x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S7x64.size a ≤ S7x64.size a
  hwx0_7 : ∀ i : grid0.Coords, EltTy.bits .f32 = 32 ∨ (Rect.block (s := S7x64) S7x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x64.size a ≤ S40000x64.size a
  hwx0_10 : ∀ i : grid0.Coords, EltTy.bits .f32 = 32 ∨ (Rect.block (s := S40000x64) S400x64.size (cc0_transform_10 i) (hinb0_10 i)).WholeWords (EltTy.packing .f32)

variable [Facts₀]

abbrev win0_0 : Pipeline.Window sig grid0 :=
  Pipeline.Window.ofSpec (Memref.whole main_v1) S400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S400x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S400x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24) S400x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v52) S7x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S400x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S40000x32x4 : Shape := ⟨3, ![40000, 32, 4]⟩
abbrev S64x9 : Shape := ⟨2, ![64, 9]⟩
abbrev S64 : Shape := ⟨1, ![64]⟩
abbrev S40000 : Shape := ⟨1, ![40000]⟩
abbrev S40000x4 : Shape := ⟨2, ![40000, 4]⟩
abbrev S40000x1x1 : Shape := ⟨3, ![40000, 1, 1]⟩
abbrev S40000x32x3 : Shape := ⟨3, ![40000, 32, 3]⟩
abbrev S_ : Shape := ⟨0, ![]⟩
abbrev S40000x3 : Shape := ⟨2, ![40000, 3]⟩
abbrev S40000x1x3 : Shape := ⟨3, ![40000, 1, 3]⟩
abbrev S40000x1 : Shape := ⟨2, ![40000, 1]⟩
abbrev S40000x32x1 : Shape := ⟨3, ![40000, 32, 1]⟩
abbrev S40000x32 : Shape := ⟨2, ![40000, 32]⟩
abbrev S40000x32x2 : Shape := ⟨3, ![40000, 32, 2]⟩
abbrev S40000x32x9 : Shape := ⟨3, ![40000, 32, 9]⟩
abbrev S32 : Shape := ⟨1, ![32]⟩
abbrev S1x32 : Shape := ⟨2, ![1, 32]⟩
abbrev S40000x32x64 : Shape := ⟨3, ![40000, 32, 64]⟩
abbrev S1x1x64 : Shape := ⟨3, ![1, 1, 64]⟩
abbrev S40000x64 : Shape := ⟨2, ![40000, 64]⟩

abbrev nBuf : Space → Nat
  | .hbm => 83
  | .vmem => 0
  | .smem => 0
  | _ => 0

abbrev bufTy : (tb : Table) → Fin (tcTables nBuf tb) → BufTy
  | .hbm, ⟨0, _⟩ => ⟨S40000x32x4, .f32⟩
  | .hbm, ⟨1, _⟩ => ⟨S64x9, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S40000, .i32⟩
  | .hbm, ⟨7, _⟩ => ⟨S40000x4, .i32⟩
  | .hbm, ⟨8, _⟩ => ⟨S40000, .f32⟩
  | .hbm, ⟨9, _⟩ => ⟨S40000x1x1, .f32⟩
  | .hbm, ⟨10, _⟩ => ⟨S40000x32x3, .f32⟩
  | .hbm, ⟨11, _⟩ => ⟨S_, .f32⟩
  | .hbm, ⟨12, _⟩ => ⟨S40000x3, .f32⟩
  | .hbm, ⟨13, _⟩ => ⟨S40000x1x3, .f32⟩
  | .hbm, ⟨14, _⟩ => ⟨S40000x1x3, .f32⟩
  | .hbm, ⟨15, _⟩ => ⟨S40000x1x3, .f32⟩
  | .hbm, ⟨16, _⟩ => ⟨S40000x32x3, .f32⟩
  | .hbm, ⟨17, _⟩ => ⟨S40000x32x3, .f32⟩
  | .hbm, ⟨18, _⟩ => ⟨S40000x32x3, .f32⟩
  | .hbm, ⟨19, _⟩ => ⟨S40000x1, .i32⟩
  | .hbm, ⟨20, _⟩ => ⟨S40000, .i32⟩
  | .hbm, ⟨21, _⟩ => ⟨S40000, .f32⟩
  | .hbm, ⟨22, _⟩ => ⟨S40000x1, .f32⟩
  | .hbm, ⟨23, _⟩ => ⟨S_, .f32⟩
  | .hbm, ⟨24, _⟩ => ⟨S40000x1, .f32⟩
  | .hbm, ⟨25, _⟩ => ⟨S40000x1, .f32⟩
  | .hbm, ⟨26, _⟩ => ⟨S_, .f32⟩
  | .hbm, ⟨27, _⟩ => ⟨S40000x1, .f32⟩
  | .hbm, ⟨28, _⟩ => ⟨S40000x1, .f32⟩
  | .hbm, ⟨29, _⟩ => ⟨S40000x1, .i32⟩
  | .hbm, ⟨30, _⟩ => ⟨S40000, .i32⟩
  | .hbm, ⟨31, _⟩ => ⟨S40000, .f32⟩
  | .hbm, ⟨32, _⟩ => ⟨S40000x1, .f32⟩
  | .hbm, ⟨33, _⟩ => ⟨S_, .f32⟩
  | .hbm, ⟨34, _⟩ => ⟨S40000x1, .f32⟩
  | .hbm, ⟨35, _⟩ => ⟨S40000x1, .f32⟩
  | .hbm, ⟨36, _⟩ => ⟨S_, .f32⟩
  | .hbm, ⟨37, _⟩ => ⟨S40000x1, .f32⟩
  | .hbm, ⟨38, _⟩ => ⟨S40000x1, .f32⟩
  | .hbm, ⟨39, _⟩ => ⟨S40000x32x1, .f32⟩
  | .hbm, ⟨40, _⟩ => ⟨S40000x32, .f32⟩
  | .hbm, ⟨41, _⟩ => ⟨S40000x32, .f32⟩
  | .hbm, ⟨42, _⟩ => ⟨S40000x32, .f32⟩
  | .hbm, ⟨43, _⟩ => ⟨S40000x32x1, .f32⟩
  | .hbm, ⟨44, _⟩ => ⟨S40000x32, .f32⟩
  | .hbm, ⟨45, _⟩ => ⟨S40000x32, .f32⟩
  | .hbm, ⟨46, _⟩ => ⟨S40000x32, .f32⟩
  | .hbm, ⟨47, _⟩ => ⟨S40000x32x1, .f32⟩
  | .hbm, ⟨48, _⟩ => ⟨S40000x32x1, .f32⟩
  | .hbm, ⟨49, _⟩ => ⟨S40000x32x2, .f32⟩
  | .hbm, ⟨50, _⟩ => ⟨S40000x32x1, .f32⟩
  | .hbm, ⟨51, _⟩ => ⟨S40000x32x1, .f32⟩
  | .hbm, ⟨52, _⟩ => ⟨S40000x32x9, .f32⟩
  | .hbm, ⟨53, _⟩ => ⟨S32, .i32⟩
  | .hbm, ⟨54, _⟩ => ⟨S1x32, .i32⟩
  | .hbm, ⟨55, _⟩ => ⟨S40000x1, .i32⟩
  | .hbm, ⟨56, _⟩ => ⟨S40000x32, .i32⟩
  | .hbm, ⟨57, _⟩ => ⟨S40000x32, .i32⟩
  | .hbm, ⟨58, _⟩ => ⟨S40000x32, .i1⟩
  | .hbm, ⟨59, _⟩ => ⟨S40000x32, .f32⟩
  | .hbm, ⟨60, _⟩ => ⟨S40000x32x1, .f32⟩
  | .hbm, ⟨61, _⟩ => ⟨S40000x32x9, .f32⟩
  | .hbm, ⟨62, _⟩ => ⟨S40000x32x9, .f32⟩
  | .hbm, ⟨63, _⟩ => ⟨S40000x32x64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S1x1x64, .f32⟩
  | .hbm, ⟨70, _⟩ => ⟨S40000x32x64, .f32⟩
  | .hbm, ⟨71, _⟩ => ⟨S40000x32x64, .f32⟩
  | .hbm, ⟨72, _⟩ => ⟨S1x1x64, .f32⟩
  | .hbm, ⟨73, _⟩ => ⟨S40000x32x64, .f32⟩
  | .hbm, ⟨74, _⟩ => ⟨S40000x32x64, .f32⟩
  | .hbm, ⟨75, _⟩ => ⟨S1x1x64, .f32⟩
  | .hbm, ⟨76, _⟩ => ⟨S40000x32x64, .f32⟩
  | .hbm, ⟨77, _⟩ => ⟨S40000x32x64, .f32⟩
  | .hbm, ⟨78, _⟩ => ⟨S_, .f32⟩
  | .hbm, ⟨79, _⟩ => ⟨S40000x32x64, .f32⟩
  | .hbm, ⟨80, _⟩ => ⟨S40000x32x64, .f32⟩
  | .hbm, ⟨81, _⟩ => ⟨S_, .f32⟩
  | .hbm, ⟨82, _⟩ => ⟨S40000x64, .f32⟩
  | _, _ => ⟨S40000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call0_cst : Ref sig .tc := ⟨.hbm, 78, rfl⟩
abbrev main_call0_v0 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩

abbrev nD : Nat := 1
abbrev τ : Topo := Topo.v7x

variable {F : FTy → Type} [FloatOps F]

class Facts₀ : Prop where
  bcast_S40000_S40000x1x1_0 : S40000.BroadcastsInDim S40000x1x1 (![0] : Fin 1 → Fin S40000x1x1.rank)
  slices_S40000x32x4_S40000x32x3_0_0_0 : S40000x32x4.Slices ![0, 0, 0] S40000x32x3
  reducesTo_S40000x32x3_S40000x3_d1 : S40000x32x3.ReducesTo [1] S40000x3
  h_S_ : 0 < S_.numel
  bcast_S40000x3_S40000x1x3_0_2 : S40000x3.BroadcastsInDim S40000x1x3 (![0, 2] : Fin 2 → Fin S40000x1x3.rank)
  bcast_S40000x1x1_S40000x1x3_0_1_2 : S40000x1x1.BroadcastsInDim S40000x1x3 (![0, 1, 2] : Fin 3 → Fin S40000x1x3.rank)
  bcast_S40000x1x3_S40000x32x3_0_1_2 : S40000x1x3.BroadcastsInDim S40000x32x3 (![0, 1, 2] : Fin 3 → Fin S40000x32x3.rank)
  slices_S40000x4_S40000x1_0_3 : S40000x4.Slices ![0, 3] S40000x1
  shapeCasts_S40000x1_S40000 : S40000x1.ShapeCasts S40000
  bcast_S40000_S40000x1_0 : S40000.BroadcastsInDim S40000x1 (![0] : Fin 1 → Fin S40000x1.rank)
  bcast_S_S40000x1 : S_.BroadcastsInDim S40000x1 (![] : Fin 0 → Fin S40000x1.rank)
  slices_S40000x4_S40000x1_0_2 : S40000x4.Slices ![0, 2] S40000x1
  slices_S40000x32x4_S40000x32x1_0_0_0 : S40000x32x4.Slices ![0, 0, 0] S40000x32x1
  shapeCasts_S40000x32x1_S40000x32 : S40000x32x1.ShapeCasts S40000x32
  bcast_S40000x1_S40000x32_0_1 : S40000x1.BroadcastsInDim S40000x32 (![0, 1] : Fin 2 → Fin S40000x32.rank)
  slices_S40000x32x4_S40000x32x1_0_0_1 : S40000x32x4.Slices ![0, 0, 1] S40000x32x1
  bcast_S40000x32_S40000x32x1_0_1 : S40000x32.BroadcastsInDim S40000x32x1 (![0, 1] : Fin 2 → Fin S40000x32x1.rank)
  slices_S40000x32x4_S40000x32x2_0_0_2 : S40000x32x4.Slices ![0, 0, 2] S40000x32x2
  concatenates_S40000x32x1_S40000x32x1_S40000x32x2_S40000x32x3_S40000x32x1_S40000x32x1_S40000x32x9_d2 : Shape.Concatenates [S40000x32x1, S40000x32x1, S40000x32x2, S40000x32x3, S40000x32x1, S40000x32x1] S40000x32x9 2
  bcast_S32_S1x32_1 : S32.BroadcastsInDim S1x32 (![1] : Fin 1 → Fin S1x32.rank)
  bcast_S1x32_S40000x32_0_1 : S1x32.BroadcastsInDim S40000x32 (![0, 1] : Fin 2 → Fin S40000x32.rank)
  bcast_S40000x32x1_S40000x32x9_0_1_2 : S40000x32x1.BroadcastsInDim S40000x32x9 (![0, 1, 2] : Fin 3 → Fin S40000x32x9.rank)
  bcast_S_S64 : S_.BroadcastsInDim S64 (![] : Fin 0 → Fin S64.rank)
  bcast_S64_S1x1x64_2 : S64.BroadcastsInDim S1x1x64 (![2] : Fin 1 → Fin S1x1x64.rank)
  bcast_S1x1x64_S40000x32x64_0_1_2 : S1x1x64.BroadcastsInDim S40000x32x64 (![0, 1, 2] : Fin 3 → Fin S40000x32x64.rank)
  bcast_S_S40000x32x64 : S_.BroadcastsInDim S40000x32x64 (![] : Fin 0 → Fin S40000x32x64.rank)
  reducesTo_S40000x32x64_S40000x64_d1 : S40000x32x64.ReducesTo [1] S40000x64
  dot_S40000x32x9_S64x9_S40000x32x64_2_1_01_0_n_n_wf : DotDims.WF S40000x32x9 S64x9 S40000x32x64 [2] [1] [0, 1] [0] [] []

variable [Facts₀]

def dot_S40000x32x9_S64x9_S40000x32x64_2_1_01_0_n_n : DotDims S40000x32x9 S64x9 S40000x32x64 where
  lhsContracting := [2]
  rhsContracting := [1]
  lhsNonContracting := [0, 1]
  rhsNonContracting := [0]
  lhsBatch := []
  rhsBatch := []
  wf := dot_S40000x32x9_S64x9_S40000x32x64_2_1_01_0_n_n_wf

class Facts : Prop extends Facts₀ where

variable [Facts]
-- ==== Proof.KernelRegion.lean ====
/-
  The region of `Kernel`: one pallas_call on a grid of 100 points, ten input windows and one output window.
  Point `t` is handed rows `400·t … 400·t + 399` of the four coordinate planes (x, y, z, intensity: `[400, 32]`
  each), of the two pillar-centre columns and of the point counts (`[400, 1]` each), and the whole of the three small
  tables (the seven folded weight rows `[7, 64]`, the scale row and the bias row `[1, 64]`); it stores one
  `[400, 64]` block, the pooled features of those 400 pillars, which is written back to rows `400·t …` of the result.
  Here: what every buffer holds when the region is entered (the host lines before it applied to the arguments, which
  they do not overwrite), the block each input window shows at a point, the body's one store as a function of the ten
  blocks it loads, and from these the run of @main: it terminates, faults nowhere, every argument array ends
  unchanged, and the result array ends at the written-back blocks.
-/
import proofs.«127579_j42107859370580_2_alg».proof.Proof.Gen.Kernel.Launch
import proofs.«127579_j42107859370580_2_alg».proof.Proof.Gen.Kernel.Skeleton
import proofs.«127579_j42107859370580_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the host lines before it applied, in order, to the launch contents. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer shows its block at every point, whether the pipeline fetched it there
    or not (the three tables are fetched once: their block index never moves), for any proof data over these arrays
    whose body leaves the inputs in place. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem found8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem found9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every array no window stages as the region found it ends with the arguments unchanged. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses: every load and the store take the whole block -/

abbrev r32 : Rect S400x32 := Rect.unit (s := S400x32) ![0, 0] S400x32.size Facts₀.inb_S400x32_S400x32_0_0
abbrev r1 : Rect S400x1 := Rect.unit (s := S400x1) ![0, 0] S400x1.size Facts₀.inb_S400x1_S400x1_0_0
abbrev r7 : Rect S7x64 := Rect.unit (s := S7x64) ![0, 0] S7x64.size Facts₀.inb_S7x64_S7x64_0_0
abbrev r64 : Rect S1x64 := Rect.unit (s := S1x64) ![0, 0] S1x64.size Facts₀.inb_S1x64_S1x64_0_0
abbrev rOut : Rect S400x64 := Rect.unit (s := S400x64) ![0, 0] S400x64.size Facts₀.inb_S400x64_S400x64_0_0

/-- The value the body stores, from the ten blocks it loads: the pooled features of the block's 400 pillars. -/
def pooled (x0 : Vec F S400x32 .f32) (x1 : Vec F S400x32 .f32) (x2 : Vec F S400x32 .f32) (x3 : Vec F S400x32 .f32) (x4 : Vec F S400x1 .f32) (x5 : Vec F S400x1 .f32) (x6 : Vec F S400x1 .i32) (x7 : Vec F S7x64 .f32) (x8 : Vec F S1x64 .f32) (x9 : Vec F S1x64 .f32) : FVec F S400x64 .f32 :=
  k0_pay1 (k0_pay14 (k0_pay10 x2 x6) (k0_pay13 x6)) (k0_pay16 x7)
    (k0_pay17 (k0_pay4 x2) (k0_pay5 x3) (k0_pay8 x0 x6) (k0_pay9 x1 x6) (k0_pay11 x0 x4) (k0_pay12 x1 x5) (k0_pay13 x6) x7) x8 x9

/-- The output window's staging buffer after the body: its one store. -/
def outBlock (x0 : Vec F S400x32 .f32) (x1 : Vec F S400x32 .f32) (x2 : Vec F S400x32 .f32) (x3 : Vec F S400x32 .f32) (x4 : Vec F S400x1 .f32) (x5 : Vec F S400x1 .f32) (x6 : Vec F S400x1 .i32) (x7 : Vec F S7x64 .f32) (x8 : Vec F S1x64 .f32) (x9 : Vec F S1x64 .f32) : Vec F S400x64 .f32 :=
  View.canon [⟨rOut, pooled (View.ld x0 r32) (View.ld x1 r32) (View.ld x2 r32) (View.ld x3 r32) (View.ld x4 r1) (View.ld x5 r1) (View.ld x6 r1) (View.ld x7 r7) (View.ld x8 r64) (View.ld x9 r64)⟩]

/-- The store covers the buffer. -/
theorem outCover (p0 : Vec F S400x64 .f32) (y : S400x64.Idx) :
    ∃ pc ∈ ([⟨rOut, p0⟩] : List (View.Piece (Elt F) S400x64 .f32)), y ∈ pc.1.set :=
  View.cover_of_tiled [⟨rOut, p0⟩] S400x64.size (by rfl) y

/-! ## The body's triple -/

set_option maxHeartbeats 4000000 in
/-- The body on whole staging memrefs, the inputs' at contents `xW` and the output's at anything, runs to the
    continuation with the inputs' as they were and the output's at `outBlock` of them. -/
theorem sound_kernel (c : Dev nD) (E : Set ℕ) (i : grid0.Coords) (arg1 : Memref sig .tc .vmem S400x32 .f32) (harg1 : arg1.IsWhole) (arg2 : Memref sig .tc .vmem S400x32 .f32) (harg2 : arg2.IsWhole) (arg3 : Memref sig .tc .vmem S400x32 .f32) (harg3 : arg3.IsWhole) (arg4 : Memref sig .tc .vmem S400x32 .f32) (harg4 : arg4.IsWhole) (arg5 : Memref sig .tc .vmem S400x1 .f32) (harg5 : arg5.IsWhole) (arg6 : Memref sig .tc .vmem S400x1 .f32) (harg6 : arg6.IsWhole) (arg7 : Memref sig .tc .vmem S400x1 .i32) (harg7 : arg7.IsWhole) (arg8 : Memref sig .tc .vmem S7x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S400x64 .f32) (harg11 : arg11.IsWhole)
    (x0 : Vec F S400x32 .f32) (x1 : Vec F S400x32 .f32) (x2 : Vec F S400x32 .f32) (x3 : Vec F S400x32 .f32) (x4 : Vec F S400x1 .f32) (x5 : Vec F S400x1 .f32) (x6 : Vec F S400x1 .i32) (x7 : Vec F S7x64 .f32) (x8 : Vec F S1x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outBlock x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (outCover _)

/-! ## The proof data -/

/-- On core `c`: the arrays as the region finds them; after the body at point `t` each input's buffer at its block
    and the output's at `outBlock` of the input blocks; nothing kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlock (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outBlock (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d
theorem found6 (c : Dev nD) (t : Fin cfg0.N) (d) : (dats m 0 c).before 6 t d = iblk m c 6 t :=
  found6_of m (dats m 0 c) (A_eq m c 6) (after6 m c) t d
theorem found7 (c : Dev nD) (t : Fin cfg0.N) (d) : (dats m 0 c).before 7 t d = iblk m c 7 t :=
  found7_of m (dats m 0 c) (A_eq m c 7) (after7 m c) t d
theorem found8 (c : Dev nD) (t : Fin cfg0.N) (d) : (dats m 0 c).before 8 t d = iblk m c 8 t :=
  found8_of m (dats m 0 c) (A_eq m c 8) (after8 m c) t d
theorem found9 (c : Dev nD) (t : Fin cfg0.N) (d) : (dats m 0 c).before 9 t d = iblk m c 9 t :=
  found9_of m (dats m 0 c) (A_eq m c 9) (after9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8, found9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and ends with every window's array at what the write-backs
    make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Region

end
-- ==== Proof.KernelIdealRegion.lean ====
/-
  The region of `KernelIdeal`: one pallas_call on a grid of 100 points, ten input windows and one output window.
  Point `t` is handed rows `400·t … 400·t + 399` of the four coordinate planes (x, y, z, intensity: `[400, 32]`
  each), of the two pillar-centre columns and of the point counts (`[400, 1]` each), and the whole of the three small
  tables (the seven folded weight rows `[7, 64]`, the scale row and the bias row `[1, 64]`); it stores one
  `[400, 64]` block, the pooled features of those 400 pillars, which is written back to rows `400·t …` of the result.
  Here: what every buffer holds when the region is entered (the host lines before it applied to the arguments, which
  they do not overwrite), the block each input window shows at a point, the body's one store as a function of the ten
  blocks it loads, and from these the run of @main: it terminates, faults nowhere, every argument array ends
  unchanged, and the result array ends at the written-back blocks.
-/
import proofs.«127579_j42107859370580_2_alg».proof.Proof.Gen.KernelIdeal.Launch
import proofs.«127579_j42107859370580_2_alg».proof.Proof.Gen.KernelIdeal.Skeleton
import proofs.«127579_j42107859370580_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the host lines before it applied, in order, to the launch contents. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer shows its block at every point, whether the pipeline fetched it there
    or not (the three tables are fetched once: their block index never moves), for any proof data over these arrays
    whose body leaves the inputs in place. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem found8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem found9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every array no window stages as the region found it ends with the arguments unchanged. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses: every load and the store take the whole block -/

abbrev r32 : Rect S400x32 := Rect.unit (s := S400x32) ![0, 0] S400x32.size Facts₀.inb_S400x32_S400x32_0_0
abbrev r1 : Rect S400x1 := Rect.unit (s := S400x1) ![0, 0] S400x1.size Facts₀.inb_S400x1_S400x1_0_0
abbrev r7 : Rect S7x64 := Rect.unit (s := S7x64) ![0, 0] S7x64.size Facts₀.inb_S7x64_S7x64_0_0
abbrev r64 : Rect S1x64 := Rect.unit (s := S1x64) ![0, 0] S1x64.size Facts₀.inb_S1x64_S1x64_0_0
abbrev rOut : Rect S400x64 := Rect.unit (s := S400x64) ![0, 0] S400x64.size Facts₀.inb_S400x64_S400x64_0_0

/-- The value the body stores, from the ten blocks it loads: the pooled features of the block's 400 pillars. -/
def pooled (x0 : Vec F S400x32 .f32) (x1 : Vec F S400x32 .f32) (x2 : Vec F S400x32 .f32) (x3 : Vec F S400x32 .f32) (x4 : Vec F S400x1 .f32) (x5 : Vec F S400x1 .f32) (x6 : Vec F S400x1 .i32) (x7 : Vec F S7x64 .f32) (x8 : Vec F S1x64 .f32) (x9 : Vec F S1x64 .f32) : FVec F S400x64 .f32 :=
  k0_pay1 (k0_pay14 (k0_pay10 x2 x6) (k0_pay13 x6)) (k0_pay16 x7)
    (k0_pay17 (k0_pay4 x2) (k0_pay5 x3) (k0_pay8 x0 x6) (k0_pay9 x1 x6) (k0_pay11 x0 x4) (k0_pay12 x1 x5) (k0_pay13 x6) x7) x8 x9

/-- The output window's staging buffer after the body: its one store. -/
def outBlock (x0 : Vec F S400x32 .f32) (x1 : Vec F S400x32 .f32) (x2 : Vec F S400x32 .f32) (x3 : Vec F S400x32 .f32) (x4 : Vec F S400x1 .f32) (x5 : Vec F S400x1 .f32) (x6 : Vec F S400x1 .i32) (x7 : Vec F S7x64 .f32) (x8 : Vec F S1x64 .f32) (x9 : Vec F S1x64 .f32) : Vec F S400x64 .f32 :=
  View.canon [⟨rOut, pooled (View.ld x0 r32) (View.ld x1 r32) (View.ld x2 r32) (View.ld x3 r32) (View.ld x4 r1) (View.ld x5 r1) (View.ld x6 r1) (View.ld x7 r7) (View.ld x8 r64) (View.ld x9 r64)⟩]

/-- The store covers the buffer. -/
theorem outCover (p0 : Vec F S400x64 .f32) (y : S400x64.Idx) :
    ∃ pc ∈ ([⟨rOut, p0⟩] : List (View.Piece (Elt F) S400x64 .f32)), y ∈ pc.1.set :=
  View.cover_of_tiled [⟨rOut, p0⟩] S400x64.size (by rfl) y

/-! ## The body's triple -/

set_option maxHeartbeats 4000000 in
/-- The body on whole staging memrefs, the inputs' at contents `xW` and the output's at anything, runs to the
    continuation with the inputs' as they were and the output's at `outBlock` of them. -/
theorem sound_kernel (c : Dev nD) (E : Set ℕ) (i : grid0.Coords) (arg1 : Memref sig .tc .vmem S400x32 .f32) (harg1 : arg1.IsWhole) (arg2 : Memref sig .tc .vmem S400x32 .f32) (harg2 : arg2.IsWhole) (arg3 : Memref sig .tc .vmem S400x32 .f32) (harg3 : arg3.IsWhole) (arg4 : Memref sig .tc .vmem S400x32 .f32) (harg4 : arg4.IsWhole) (arg5 : Memref sig .tc .vmem S400x1 .f32) (harg5 : arg5.IsWhole) (arg6 : Memref sig .tc .vmem S400x1 .f32) (harg6 : arg6.IsWhole) (arg7 : Memref sig .tc .vmem S400x1 .i32) (harg7 : arg7.IsWhole) (arg8 : Memref sig .tc .vmem S7x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S400x64 .f32) (harg11 : arg11.IsWhole)
    (x0 : Vec F S400x32 .f32) (x1 : Vec F S400x32 .f32) (x2 : Vec F S400x32 .f32) (x3 : Vec F S400x32 .f32) (x4 : Vec F S400x1 .f32) (x5 : Vec F S400x1 .f32) (x6 : Vec F S400x1 .i32) (x7 : Vec F S7x64 .f32) (x8 : Vec F S1x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outBlock x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (outCover _)

/-! ## The proof data -/

/-- On core `c`: the arrays as the region finds them; after the body at point `t` each input's buffer at its block
    and the output's at `outBlock` of the input blocks; nothing kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlock (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outBlock (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d
theorem found6 (c : Dev nD) (t : Fin cfg0.N) (d) : (dats m 0 c).before 6 t d = iblk m c 6 t :=
  found6_of m (dats m 0 c) (A_eq m c 6) (after6 m c) t d
theorem found7 (c : Dev nD) (t : Fin cfg0.N) (d) : (dats m 0 c).before 7 t d = iblk m c 7 t :=
  found7_of m (dats m 0 c) (A_eq m c 7) (after7 m c) t d
theorem found8 (c : Dev nD) (t : Fin cfg0.N) (d) : (dats m 0 c).before 8 t d = iblk m c 8 t :=
  found8_of m (dats m 0 c) (A_eq m c 8) (after8 m c) t d
theorem found9 (c : Dev nD) (t : Fin cfg0.N) (d) : (dats m 0 c).before 9 t d = iblk m c 9 t :=
  found9_of m (dats m 0 c) (A_eq m c 9) (after9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8, found9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and ends with every window's array at what the write-backs
    make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Region

end
-- ==== Proof.LibKeepdims.lean ====
/-
  Layout operations read at an index, for the shapes a kept-dimension reduction and an outer product put around a value:
  a vector cast to a column (`[a] → [a, 1]`), a column laid along every lane (`[a, 1] → [a, b]`), a matrix given a
  trailing unit axis (`[a, b] → [a, b, 1]`) and laid along a new last axis (`[a, b, 1] → [a, b, c]`), a vector given
  two leading unit axes (`[c] → [1, 1, c]`) and laid along both (`[1, 1, c] → [a, b, c]`). Each says which ONE
  element of the operand the result's element at given coordinates is. Stated for any extents and any element type.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` laid along `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array given a trailing unit axis reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array laid along a last axis of extent `c` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[c]` array given two leading unit axes reads, at `(u, v, k)`, the operand at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- A `[1, 1, c]` array laid along two leading axes reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.Keepdims
-- ==== Proof.PillarAlgebra.lean ====
/-
  The arithmetic of one pooled feature, on the extended reals, apart from every program.

  For a pillar, one of its 32 point slots and one of the 64 output channels, the layer computes
  `max(((Σ_k feat_k · mask · W_k) − μ) · s + β, 0)` over nine features: the point's offset from the pillar's centre
  (x, y), its height and intensity, its offset from the mean of the pillar's points (x, y, z), and the first two again.
  `mask` is 1 on the slots below the pillar's point count and 0 on the others, `s = γ / √(σ² + ε)`.
  One program forms the nine products as they stand and normalises as `(x − μ) · s + β`; the other adds the weights of
  the two repeated features first (seven products) and normalises as `x · s + (β − μ · s)`, and it divides the sums by
  `max(count, 1)` where the first divides by the count. On real numbers these are one value: distributivity joins the
  folded weights and the two normalisations, and a slot whose mask is 1 sits below the count, so the count is at least 1
  there and the two divisors agree, while on a slot whose mask is 0 every feature is multiplied by 0. Distributivity
  fails at the infinities, so the statement asks that every operand is a real number and that the variance is not
  negative (which makes `s` real).
-/
import Idealize.ShloMosaic.PureOps.Ideal
import Idealize.ShloMosaic.Lib.KernelVsHost

noncomputable section

open Idealize.ShloMosaic

namespace Cert.Pillar

/-! ## Real numbers among the extended reals -/

/-- The extended real is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type} (s : Finset ι) (f : ι → EReal) : (∀ i ∈ s, IsReal (f i)) → IsReal (∑ i ∈ s, f i) := by
  classical
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- A real number divided by a nonzero real number is their quotient. -/
theorem IsReal.div {x : EReal} (hx : IsReal x) {y : ℝ} (hy : y ≠ 0) : IsReal (Ideal.div x (y : EReal)) := by
  obtain ⟨a, rfl⟩ := hx
  rw [Ideal.div_coe hy]
  exact (IsReal.coe a).mul (IsReal.coe _)

/-- An integer read as a float is a real number. -/
theorem isReal_int (z : ℤ) : IsReal (((z : ℝ) : EReal)) := IsReal.coe _

/-! ## Float words -/

/-- An f32 word whose exponent field is not all ones denotes a real number. -/
theorem isReal_f32 (b : BitVec 32) (h : (b.extractLsb' 23 8).toNat ≠ 255) : IsReal (Ideal.ofBits .f32 b) := by
  unfold Ideal.ofBits Ideal.ieee
  dsimp only
  rw [if_neg (by simpa using h)]
  split_ifs <;> exact ⟨_, rfl⟩

/-- A positive normal f32 word denotes a positive real number. -/
theorem pos_f32 (b : BitVec 32) (h : (b.extractLsb' 23 8).toNat ≠ 255) (h0 : (b.extractLsb' 23 8).toNat ≠ 0)
    (hs : (b.extractLsb' 31 1 == 1#1) = false) : ∃ r : ℝ, 0 < r ∧ Ideal.ofBits .f32 b = (r : EReal) := by
  unfold Ideal.ofBits Ideal.ieee
  dsimp only
  rw [if_neg (by simpa using h), if_neg h0, hs]
  refine ⟨_, ?_, rfl⟩
  simp only [Bool.false_eq_true, if_false, one_mul]
  positivity

/-- The word of `1.0`. -/
theorem one_f32 : Ideal.ofBits .f32 0x3F800000#32 = 1 := by
  simp [Ideal.ofBits, Ideal.ieee]
  rw [← EReal.coe_mul]
  norm_num

/-! ## The mask -/

/-- A condition read as a float is 0 or 1. -/
theorem bit_cases (b : BitVec 1) : b = 0#1 ∨ b = 1#1 := by
  revert b; decide

/-- The float of a condition: 1 where it holds, 0 where it does not. -/
def maskOf (b : BitVec 1) : EReal := ((b.toNat : ℝ) : EReal)

theorem maskOf_zero : maskOf 0#1 = 0 := by simp [maskOf]
theorem maskOf_one : maskOf 1#1 = 1 := by simp [maskOf]

/-- A condition widened to a word and read signed is the same float. -/
theorem maskOf_setWidth (b : BitVec 1) : ((((b.setWidth 32).toInt : ℤ) : ℝ) : EReal) = maskOf b := by
  rw [toInt_setWidth_bit]; unfold maskOf; norm_cast

/-! ## Nine terms -/

theorem sum9 {M : Type} [AddCommMonoid M] (g : Fin 9 → M) :
    ∑ k : Fin 9, g k = g 0 + g 1 + g 2 + g 3 + g 4 + g 5 + g 6 + g 7 + g 8 := by
  rw [Fin.sum_univ_succ, Fin.sum_univ_eight]
  simp only [add_assoc]
  rfl

/-! ## The two forms of the activation -/

/-- Nine masked features against the nine weight columns, normalised as `(x − μ) · s + β`, clipped at 0. -/
def actRef (f : Fin 9 → EReal) (mk : EReal) (w : Fin 9 → EReal) (s β μ : EReal) : EReal :=
  max (((∑ k : Fin 9, (f k * mk) * w k) - μ) * s + β) 0

/-- Seven products against seven weights (only the first seven features are used), scaled, a bias added, clipped at 0. -/
def actKer (f : Fin 9 → EReal) (mk : EReal) (wk : Fin 7 → EReal) (s bias : EReal) : EReal :=
  max ((f 0 * mk * wk 0 + f 1 * mk * wk 1 + f 2 * mk * wk 2 + f 3 * mk * wk 3
        + f 4 * mk * wk 4 + f 5 * mk * wk 5 + f 6 * mk * wk 6) * s + bias) 0

/-- The seven weights: those of the two repeated features added, the other five as they are. -/
def foldW (w : Fin 9 → EReal) : Fin 7 → EReal := ![w 0 + w 7, w 1 + w 8, w 2, w 3, w 4, w 5, w 6]

/-- On real operands the seven-weight form at the folded weights and the bias `β − μ · s` is the nine-weight form: distributivity, twice. The masked features may differ between the two
    (`hkr` asks only that they agree once masked) and the last two repeat the first two. -/
theorem act_eq (fk fr : Fin 9 → EReal) (mk : EReal) (w : Fin 9 → EReal) (s β μ : EReal)
    (hf : ∀ k, IsReal (fr k * mk)) (hkr : ∀ k, fk k * mk = fr k * mk) (h7 : fr 7 = fr 0) (h8 : fr 8 = fr 1)
    (hw : ∀ k, IsReal (w k)) (hs : IsReal s) (hβ : IsReal β) (hμ : IsReal μ) :
    actKer fk mk (foldW w) s (β - μ * s) = actRef fr mk w s β μ := by
  unfold actKer actRef
  show max ((fk 0 * mk * (w 0 + w 7) + fk 1 * mk * (w 1 + w 8) + fk 2 * mk * w 2 + fk 3 * mk * w 3
        + fk 4 * mk * w 4 + fk 5 * mk * w 5 + fk 6 * mk * w 6) * s + (β - μ * s)) 0 = _
  rw [sum9]
  simp only [hkr]
  rw [h7, h8]
  choose g hg using hf
  choose W hW using hw
  obtain ⟨S, rfl⟩ := hs; obtain ⟨B, rfl⟩ := hβ; obtain ⟨M, rfl⟩ := hμ
  simp only [hg, hW]
  simp only [← EReal.coe_mul, ← EReal.coe_add, ← EReal.coe_sub]
  refine congrArg (fun x => max x 0) (congrArg _ ?_)
  ring

/-! ## The scale -/

/-- With a real `γ`, a real variance that is not negative and a positive real `ε`, `γ / √(σ² + ε)` is a real number. -/
theorem scale_real (γ v eps : EReal) (hγ : IsReal γ) (hv : IsReal v) (hv0 : 0 ≤ v) (heps : ∃ r : ℝ, 0 < r ∧ eps = (r : EReal)) :
    IsReal (Ideal.div γ (Ideal.sqrt (v + eps))) := by
  obtain ⟨vr, rfl⟩ := hv
  obtain ⟨er, her, rfl⟩ := heps
  have hvr : 0 ≤ vr := by exact_mod_cast hv0
  rw [← EReal.coe_add, Ideal.sqrt_coe, if_neg (by linarith)]
  exact hγ.div (Real.sqrt_pos.2 (by linarith)).ne'

end Cert.Pillar

end
-- ==== Proof.PillarSpec.lean ====
/-
  The pooled pillar features as one function of the eight argument arrays, index by index, in the two forms the two
  programs compute, and their equality.

  Arrays: `vox [40000, 32, 4]` (pillar, point slot, x / y / z / intensity), `W [64, 9]`, `γ β μ σ² [64]`,
  `cnt [40000]` (points per pillar, a signed word), `coords [40000, 4]` (signed words; column 3 is the x cell, column 2
  the y cell). For pillar `P`, slot `n`, channel `o`:
  the centre is `cell · 0.16 + 0.08` in x and `cell · 0.16 − 39.6` in y (the f32 words of those decimals), the mean
  of a coordinate is its sum over the 32 slots divided by the count, the mask is 1 when `n` is below the count. The
  result at `(P, o)` is the maximum over the slots, from `-∞`, of the activation (PillarAlgebra).
-/
import proofs.«127579_j42107859370580_2_alg».proof.Proof.PillarAlgebra
import Idealize.ShloMosaic.Lib.ValueIdx

noncomputable section

open Idealize.ShloMosaic Idealize.ShloMosaic.ValueIdx

namespace Cert.Pillar

/-- The argument arrays, at the extended reals and at words. -/
abbrev VoxA := (⟨3, ![40000, 32, 4]⟩ : Shape).Idx → EReal
abbrev WA := (⟨2, ![64, 9]⟩ : Shape).Idx → EReal
abbrev ChA := (⟨1, ![64]⟩ : Shape).Idx → EReal
abbrev CntA := (⟨1, ![40000]⟩ : Shape).Idx → BitVec 32
abbrev CoordA := (⟨2, ![40000, 4]⟩ : Shape).Idx → BitVec 32

/-- The words of 0.16, 0.08, −39.6 and 0.001. -/
abbrev cellW : EReal := Ideal.ofBits .f32 0x3E23D70A#32
abbrev halfW : EReal := Ideal.ofBits .f32 0x3DA3D70A#32
abbrev yoffW : EReal := Ideal.ofBits .f32 0xC21E6666#32
abbrev epsW : EReal := Ideal.ofBits .f32 0x3A83126F#32

theorem cellW_real : IsReal cellW := isReal_f32 _ (by decide)
theorem halfW_real : IsReal halfW := isReal_f32 _ (by decide)
theorem yoffW_real : IsReal yoffW := isReal_f32 _ (by decide)
theorem epsW_pos : ∃ r : ℝ, 0 < r ∧ epsW = (r : EReal) := pos_f32 _ (by decide) (by decide) (by decide)

/-- A signed word as a float. -/
abbrev fl (b : BitVec 32) : EReal := ((b.toInt : ℝ) : EReal)

/-- The pillar's centre. -/
def cxOf (coords : CoordA) (P : Fin 40000) : EReal := fl (coords (ix2 P (3 : Fin 4))) * cellW + halfW
def cyOf (coords : CoordA) (P : Fin 40000) : EReal := fl (coords (ix2 P (2 : Fin 4))) * cellW + yoffW

/-- The sum of coordinate `j` over the pillar's 32 slots. -/
def sumOf (vox : VoxA) (P : Fin 40000) (j : Fin 4) : EReal := ∑ k : Fin 32, vox (ix3 P k j)

/-- Whether slot `n` is below the pillar's count (signed), as a condition and as a float. -/
abbrev liveBit (cnt : CntA) (P : Fin 40000) (n : Fin 32) : BitVec 1 := IntOp.cmpi .slt (BitVec.ofNat 32 n.val) (cnt (ix1 P))
def maskAt (cnt : CntA) (P : Fin 40000) (n : Fin 32) : EReal := maskOf (liveBit cnt P n)

/-- The nine features, the means taken over a divisor `N`. -/
def feats (vox : VoxA) (coords : CoordA) (N : EReal) (P : Fin 40000) (n : Fin 32) : Fin 9 → EReal :=
  ![vox (ix3 P n (0 : Fin 4)) - cxOf coords P, vox (ix3 P n (1 : Fin 4)) - cyOf coords P,
    vox (ix3 P n (2 : Fin 4)), vox (ix3 P n (3 : Fin 4)),
    vox (ix3 P n (0 : Fin 4)) - Ideal.div (sumOf vox P 0) N, vox (ix3 P n (1 : Fin 4)) - Ideal.div (sumOf vox P 1) N,
    vox (ix3 P n (2 : Fin 4)) - Ideal.div (sumOf vox P 2) N,
    vox (ix3 P n (0 : Fin 4)) - cxOf coords P, vox (ix3 P n (1 : Fin 4)) - cyOf coords P]

/-- Channel `o`'s nine weights and its scale `γ / √(σ² + ε)`. -/
def wOf (W : WA) (o : Fin 64) : Fin 9 → EReal := fun k => W (ix2 o k)
def scaleOf (γ var : ChA) (o : Fin 64) : EReal := Ideal.div (γ (ix1 o)) (Ideal.sqrt (var (ix1 o) + epsW))

/-- The activation, the means over the count … -/
def actR (vox : VoxA) (W : WA) (γ β μ var : ChA) (cnt : CntA) (coords : CoordA) (P : Fin 40000) (n : Fin 32) (o : Fin 64) : EReal :=
  actRef (feats vox coords (fl (cnt (ix1 P))) P n) (maskAt cnt P n) (wOf W o) (scaleOf γ var o) (β (ix1 o)) (μ (ix1 o))

/-- … and in the folded form, the means over `max(count, 1)`. -/
def actK (vox : VoxA) (W : WA) (γ β μ var : ChA) (cnt : CntA) (coords : CoordA) (P : Fin 40000) (n : Fin 32) (o : Fin 64) : EReal :=
  actKer (feats vox coords (max (fl (cnt (ix1 P))) 1) P n) (maskAt cnt P n) (foldW (wOf W o)) (scaleOf γ var o)
    (β (ix1 o) - μ (ix1 o) * scaleOf γ var o)

/-- The maximum over the 32 slots, from `-∞`. -/
def pooledOf (act : Fin 40000 → Fin 32 → Fin 64 → EReal) (P : Fin 40000) (o : Fin 64) : EReal :=
  (Finset.univ : Finset (Fin 32)).fold max (Ideal.ofBits .f32 0xFF800000#32) (fun n => act P n o)

/-! ## A live slot's pillar has at least one point -/

theorem toInt_slot : ∀ k : Fin 32, (BitVec.ofNat 32 k.val).toInt = (k.val : ℤ) := by decide

theorem one_le_of_live (n : Fin 32) (c : BitVec 32) (h : IntOp.cmpi .slt (BitVec.ofNat 32 n.val) c = 1#1) : 1 ≤ c.toInt := by
  have h' : (BitVec.ofNat 32 n.val).slt c = true := by
    have hc : IntOp.cmpi .slt (BitVec.ofNat 32 n.val) c = BitVec.ofBool ((BitVec.ofNat 32 n.val).slt c) := rfl
    rw [hc] at h
    cases hb : (BitVec.ofNat 32 n.val).slt c with
    | true => rfl
    | false => rw [hb] at h; exact absurd h (by decide)
  rw [BitVec.slt, decide_eq_true_eq, toInt_slot] at h'
  omega

/-! ## The two forms agree -/

theorem feats_real (vox : VoxA) (coords : CoordA) (hvox : ∀ i, IsReal (vox i)) (N : ℝ) (hN : N ≠ 0) (P : Fin 40000) (n : Fin 32) :
    ∀ k, IsReal (feats vox coords (N : EReal) P n k) := by
  have hcx : IsReal (cxOf coords P) := ((isReal_int _).mul cellW_real).add halfW_real
  have hcy : IsReal (cyOf coords P) := ((isReal_int _).mul cellW_real).add yoffW_real
  have hs : ∀ j, IsReal (sumOf vox P j) := fun j => IsReal.sum _ _ fun k _ => hvox _
  intro k
  fin_cases k
  · exact (hvox _).sub hcx
  · exact (hvox _).sub hcy
  · exact hvox _
  · exact hvox _
  · exact (hvox _).sub ((hs 0).div hN)
  · exact (hvox _).sub ((hs 1).div hN)
  · exact (hvox _).sub ((hs 2).div hN)
  · exact (hvox _).sub hcx
  · exact (hvox _).sub hcy

/-- With every float input a real number and no variance negative, the folded form is the reference's, at every pillar,
    slot and channel: on a live slot the count is at least 1, so both means divide by it and every feature is real; on a
    dead slot the mask is 0 and every feature is multiplied away. -/
theorem actK_eq_actR (vox : VoxA) (W : WA) (γ β μ var : ChA) (cnt : CntA) (coords : CoordA)
    (hvox : ∀ i, IsReal (vox i)) (hW : ∀ i, IsReal (W i)) (hγ : ∀ i, IsReal (γ i)) (hβ : ∀ i, IsReal (β i))
    (hμ : ∀ i, IsReal (μ i)) (hvar : ∀ i, IsReal (var i)) (hvar0 : ∀ i, 0 ≤ var i)
    (P : Fin 40000) (n : Fin 32) (o : Fin 64) :
    actK vox W γ β μ var cnt coords P n o = actR vox W γ β μ var cnt coords P n o := by
  unfold actK actR
  have hs : IsReal (scaleOf γ var o) := scale_real _ _ _ (hγ _) (hvar _) (hvar0 _) epsW_pos
  rcases bit_cases (liveBit cnt P n) with hb | hb
  · -- a dead slot
    have hm : maskAt cnt P n = 0 := by unfold maskAt; rw [hb]; exact maskOf_zero
    rw [hm]
    exact act_eq _ _ _ _ _ _ _ (fun k => by rw [mul_zero]; exact IsReal.zero) (fun k => by rw [mul_zero, mul_zero]) rfl rfl
      (fun k => hW _) hs (hβ _) (hμ _)
  · -- a live slot
    have h1 : 1 ≤ (cnt (ix1 P)).toInt := one_le_of_live n _ hb
    have hmax : max (fl (cnt (ix1 P))) 1 = fl (cnt (ix1 P)) := by
      refine max_eq_left ?_
      show (1 : EReal) ≤ (((cnt (ix1 P)).toInt : ℝ) : EReal)
      rw [← EReal.coe_one, EReal.coe_le_coe_iff]
      exact_mod_cast h1
    have hm : maskAt cnt P n = 1 := by unfold maskAt; rw [hb]; exact maskOf_one
    rw [hmax, hm]
    have hN : (((cnt (ix1 P)).toInt : ℝ)) ≠ 0 := by
      have : (0 : ℝ) < ((cnt (ix1 P)).toInt : ℝ) := by exact_mod_cast (show (0 : ℤ) < (cnt (ix1 P)).toInt by omega)
      exact this.ne'
    exact act_eq _ _ _ _ _ _ _ (fun k => by rw [mul_one]; exact feats_real vox coords hvox _ hN P n k) (fun k => rfl) rfl rfl
      (fun k => hW _) hs (hβ _) (hμ _)

end Cert.Pillar

end
-- ==== Proof.KernelIdealPayload.lean ====
/-
  The value one grid point stores, read at an index, over the extended reals.

  The point loads ten blocks: the four coordinate planes `x, y, z, i` of 400 pillars (`[400, 32]`: pillar row, point
  slot), the two pillar-centre columns and the point counts (`[400, 1]`), the seven weight rows (`[7, 64]`), the scale
  row and the bias row (`[1, 64]`). What it stores at (pillar row `r`, channel `o`) is the maximum over the 32 slots
  `n` — starting from `-∞` — of
  `max((Σ_{k<7} feat_k(r, n) · mask(r, n) · W(k, o)) · scale(o) + bias(o), 0)`,
  the features being `x − cx, y − cy, z, i, x − Σx / max(count, 1), y − Σy / max(count, 1), z − Σz / max(count, 1)`.
  Each lemma below reads one of the body's values at coordinates; the last assembles them.
-/
import proofs.«127579_j42107859370580_2_alg».proof.Proof.KernelIdealRegion
import proofs.«127579_j42107859370580_2_alg».proof.Proof.LibKeepdims
import proofs.«127579_j42107859370580_2_alg».proof.Proof.PillarSpec
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.Keepdims Cert.Pillar

/-! ## Casts to the same shape -/

theorem pay2_eq (v : Vec Ideal S400x32 .f32) : k0_pay2 v = v := shapeCast_self v _
theorem pay3_eq (v : Vec Ideal S400x32 .f32) : k0_pay3 v = v := shapeCast_self v _
theorem pay4_eq (v : Vec Ideal S400x32 .f32) : k0_pay4 v = v := shapeCast_self v _
theorem pay5_eq (v : Vec Ideal S400x32 .f32) : k0_pay5 v = v := shapeCast_self v _
theorem pay6_eq (v : Vec Ideal S400x1 .i32) : k0_pay6 (F := Ideal) v = v := shapeCast_self v _
theorem pay15_eq (v : Vec Ideal S7x64 .f32) : k0_pay15 v = v := shapeCast_self v _

/-! ## The reductions' inserted coordinate -/

theorem lift_slot (h : S400x32.Reduces [1] S400) (r : Fin 400) (k : Fin 32) : h.lift (ix1 r) k = ix2 r k :=
  funext fun a => match a with | ⟨0, _⟩ => Fin.ext rfl | ⟨1, _⟩ => Fin.ext rfl

theorem lift_point (h : S400x32x64.Reduces [1] S400x64) (r : Fin 400) (o : Fin 64) (n : Fin 32) :
    h.lift (ix2 r o) n = ix3 r n o :=
  funext fun a => match a with | ⟨0, _⟩ => Fin.ext rfl | ⟨1, _⟩ => Fin.ext rfl | ⟨2, _⟩ => Fin.ext rfl

/-! ## The count, clipped below at 1 -/

/-- `max(count, 1)` of pillar row `r`. -/
theorem pay7_apply (v12 : Vec Ideal S400x1 .i32) (r : Fin 400) :
    k0_pay7 (F := Ideal) v12 (ix2 r (0 : Fin 1)) = max ((((v12 (ix2 r (0 : Fin 1)) : BitVec 32).toInt : ℝ) : EReal)) 1 := by
  unfold k0_pay7
  rw [pay6_eq]
  show max _ (Ideal.ofBits .f32 0x3F800000#32) = _
  rw [one_f32]
  rfl

/-! ## A coordinate less the pillar's mean of it -/

theorem sub_mean_apply (v : Vec Ideal S400x32 .f32) (cnt : FVec Ideal S400x1 .f32) (r : Fin 400) (n : Fin 32) :
    subf v (broadcastTo S400x32 (divf (shapeCast S400x1 (multiReduction .add [1] S400 v 0x00000000#32 reduces_S400x32_S400 (.inl rfl) rfl)
      shapeCasts_S400_S400x1) cnt) broadcasts_S400x1_S400x32) (ix2 r n)
      = v (ix2 r n) - Ideal.div (∑ k : Fin 32, v (ix2 r k)) (cnt (ix2 r (0 : Fin 1))) := by
  rw [subf_apply, broadcastTo_a1_ab_apply, divf_apply, shapeCast_a_a1_apply]
  refine congrArg (fun s => v (ix2 r n) - Ideal.div s (cnt (ix2 r (0 : Fin 1)))) ?_
  refine (Ideal.multiReduction_add_single v _ _ _ _ (ix1 r)).trans ?_
  exact Finset.sum_congr rfl fun k _ => congrArg v (lift_slot _ r k)

theorem pay8_apply (v0 : Vec Ideal S400x32 .f32) (v12 : Vec Ideal S400x1 .i32) (r : Fin 400) (n : Fin 32) :
    k0_pay8 v0 v12 (ix2 r n) = v0 (ix2 r n) - Ideal.div (∑ k : Fin 32, v0 (ix2 r k)) (k0_pay7 v12 (ix2 r (0 : Fin 1))) := by
  unfold k0_pay8; rw [pay2_eq]; exact sub_mean_apply v0 _ r n
theorem pay9_apply (v2 : Vec Ideal S400x32 .f32) (v12 : Vec Ideal S400x1 .i32) (r : Fin 400) (n : Fin 32) :
    k0_pay9 v2 v12 (ix2 r n) = v2 (ix2 r n) - Ideal.div (∑ k : Fin 32, v2 (ix2 r k)) (k0_pay7 v12 (ix2 r (0 : Fin 1))) := by
  unfold k0_pay9; rw [pay3_eq]; exact sub_mean_apply v2 _ r n
theorem pay10_apply (v4 : Vec Ideal S400x32 .f32) (v12 : Vec Ideal S400x1 .i32) (r : Fin 400) (n : Fin 32) :
    k0_pay10 v4 v12 (ix2 r n) = v4 (ix2 r n) - Ideal.div (∑ k : Fin 32, v4 (ix2 r k)) (k0_pay7 v12 (ix2 r (0 : Fin 1))) := by
  unfold k0_pay10; rw [pay4_eq]; exact sub_mean_apply v4 _ r n

/-! ## A coordinate less the pillar's centre -/

theorem pay11_apply (v0 : Vec Ideal S400x32 .f32) (v8 : Vec Ideal S400x1 .f32) (r : Fin 400) (n : Fin 32) :
    k0_pay11 v0 v8 (ix2 r n) = v0 (ix2 r n) - v8 (ix2 r (0 : Fin 1)) := by
  unfold k0_pay11; rw [pay2_eq]
  rw [subf_apply, broadcastTo_a1_ab_apply, shapeCast_self]
theorem pay12_apply (v2 : Vec Ideal S400x32 .f32) (v10 : Vec Ideal S400x1 .f32) (r : Fin 400) (n : Fin 32) :
    k0_pay12 v2 v10 (ix2 r n) = v2 (ix2 r n) - v10 (ix2 r (0 : Fin 1)) := by
  unfold k0_pay12; rw [pay3_eq]
  rw [subf_apply, broadcastTo_a1_ab_apply, shapeCast_self]

/-! ## The mask -/

/-- Slot `n` of pillar row `r` is live when `n` is below the row's count, compared as signed words. -/
theorem pay13_apply (v12 : Vec Ideal S400x1 .i32) (r : Fin 400) (n : Fin 32) :
    k0_pay13 (F := Ideal) v12 (ix2 r n) = maskOf (IntOp.cmpi .slt (BitVec.ofNat 32 n.val) (v12 (ix2 r (0 : Fin 1)))) := by
  unfold k0_pay13; rw [pay6_eq]
  rw [← maskOf_setWidth]
  show ((((IntOp.cmpi .slt (iota .tc S400x32 32 [1] iota_S400x32_d1_w32 (ix2 r n))
      (broadcastTo S400x32 v12 broadcasts_S400x1_S400x32 (ix2 r n))).setWidth 32).toInt : ℝ) : EReal) = _
  rw [iota_single_apply, broadcastTo_a1_ab_apply]

/-! ## The weight rows -/

theorem wrow_apply (v48 : Vec Ideal S7x64 .f32) (kn : Nat) (hs : S7x64.Slices ![kn, 0] S1x64) (k : Fin 7) (hk : k.val = kn)
    (o : Fin 64) :
    shapeCast S64 (extractStridedSlice S1x64 ![kn, 0] (k0_pay15 v48) hs) shapeCasts_S1x64_S64 (ix1 o) = v48 (ix2 k o) := by
  rw [pay15_eq, shapeCast_1a_a_apply]
  exact slice2_axis0_apply kn v48 hs (0 : Fin 1) o k (by rw [hk]; rfl)

theorem pay16_apply (v48 : Vec Ideal S7x64 .f32) (o : Fin 64) : k0_pay16 v48 (ix1 o) = v48 (ix2 (6 : Fin 7) o) := by
  unfold k0_pay16; exact wrow_apply v48 6 _ 6 rfl o

/-! ## One term of the seven: a masked feature laid along the channels, times a weight row laid along pillars and slots -/

theorem col_apply (f : FVec Ideal S400x32 .f32) (r : Fin 400) (n : Fin 32) (o : Fin 64) :
    broadcastTo S400x32x64 (shapeCast S400x32x1 f shapeCasts_S400x32_S400x32x1) broadcasts_S400x32x1_S400x32x64 (ix3 r n o) = f (ix2 r n) := by
  rw [broadcastTo_ab1_abc_apply, shapeCast_ab_ab1_apply]

theorem term_apply (f : FVec Ideal S400x32 .f32) (w : FVec Ideal S64 .f32) (r : Fin 400) (n : Fin 32) (o : Fin 64) :
    mulf (broadcastTo S400x32x64 (shapeCast S400x32x1 f shapeCasts_S400x32_S400x32x1) broadcasts_S400x32x1_S400x32x64)
      (broadcastTo S400x32x64 (shapeCast S1x1x64 w shapeCasts_S64_S1x1x64) broadcasts_S1x1x64_S400x32x64) (ix3 r n o)
      = f (ix2 r n) * w (ix1 o) := by
  rw [mulf_apply, broadcastTo_ab1_abc_apply, shapeCast_ab_ab1_apply, broadcastTo_11c_abc_apply, shapeCast_c_11c_apply]

theorem row_apply (w : FVec Ideal S64 .f32) (r : Fin 400) (n : Fin 32) (o : Fin 64) :
    broadcastTo S400x32x64 (shapeCast S1x1x64 w shapeCasts_S64_S1x1x64) broadcasts_S1x1x64_S400x32x64 (ix3 r n o) = w (ix1 o) := by
  rw [broadcastTo_11c_abc_apply, shapeCast_c_11c_apply]

/-! ## The first six terms -/

theorem pay17_apply (v5 v7 v27 v29 v33 v35 v40 : FVec Ideal S400x32 .f32) (v48 : Vec Ideal S7x64 .f32)
    (r : Fin 400) (n : Fin 32) (o : Fin 64) :
    k0_pay17 v5 v7 v27 v29 v33 v35 v40 v48 (ix3 r n o)
      = v33 (ix2 r n) * v40 (ix2 r n) * v48 (ix2 (0 : Fin 7) o) + v35 (ix2 r n) * v40 (ix2 r n) * v48 (ix2 (1 : Fin 7) o)
        + v5 (ix2 r n) * v40 (ix2 r n) * v48 (ix2 (2 : Fin 7) o) + v7 (ix2 r n) * v40 (ix2 r n) * v48 (ix2 (3 : Fin 7) o)
        + v27 (ix2 r n) * v40 (ix2 r n) * v48 (ix2 (4 : Fin 7) o) + v29 (ix2 r n) * v40 (ix2 r n) * v48 (ix2 (5 : Fin 7) o) := by
  unfold k0_pay17
  simp only [addf_apply, mulf_apply, col_apply, row_apply]
  rw [wrow_apply v48 0 _ 0 rfl, wrow_apply v48 1 _ 1 rfl, wrow_apply v48 2 _ 2 rfl, wrow_apply v48 3 _ 3 rfl,
    wrow_apply v48 4 _ 4 rfl, wrow_apply v48 5 _ 5 rfl]

/-! ## The stored value -/

set_option backward.isDefEq.respectTransparency.types false in
/-- The pooled feature of pillar row `r`, channel `o`: the maximum from `-∞` over the 32 slots of the clipped,
    normalised sum of the seven masked products. -/
theorem pay1_apply (v47 : FVec Ideal S400x32 .f32) (v63 : FVec Ideal S64 .f32) (v98 : FVec Ideal S400x32x64 .f32)
    (v105 v108 : Vec Ideal S1x64 .f32) (r : Fin 400) (o : Fin 64) :
    k0_pay1 v47 v63 v98 v105 v108 (ix2 r o)
      = (Finset.univ : Finset (Fin 32)).fold max (Ideal.ofBits .f32 0xFF800000#32) (fun n =>
          max ((v98 (ix3 r n o) + v47 (ix2 r n) * v63 (ix1 o)) * v105 (ix2 (0 : Fin 1) o) + v108 (ix2 (0 : Fin 1) o)) 0) := by
  unfold k0_pay1
  refine (Ideal.multiReduction_maximumf_single _ _ _ _ _ (ix2 r o)).trans ?_
  refine congrArg (fun f => Finset.fold max (Ideal.ofBits .f32 0xFF800000#32) f Finset.univ) (funext fun (n : Fin 32) => ?_)
  rw [Function.comp_apply, lift_point _ r o n, maximumf_apply, addf_apply, mulf_apply, addf_apply, term_apply, row_apply, row_apply,
    shapeCast_1a_a_apply, shapeCast_self, shapeCast_1a_a_apply, shapeCast_self]
  show max _ (Ideal.ofBits .f32 0x00000000#32) = _
  rw [Ideal.ofBits_zero_f32]

/-! ## The block, assembled -/

theorem pay14_apply (a b : FVec Ideal S400x32 .f32) (r : Fin 400) (n : Fin 32) :
    k0_pay14 a b (ix2 r n) = a (ix2 r n) * b (ix2 r n) := rfl

/-- The nine features of slot `n` of pillar row `r`, from the blocks (the seven-weight form uses the first seven). -/
def blockFeats (x0 x1 x2 x3 : Vec Ideal S400x32 .f32) (x4 x5 : Vec Ideal S400x1 .f32) (x6 : Vec Ideal S400x1 .i32)
    (r : Fin 400) (n : Fin 32) : Fin 9 → EReal :=
  ![x0 (ix2 r n) - x4 (ix2 r (0 : Fin 1)), x1 (ix2 r n) - x5 (ix2 r (0 : Fin 1)), x2 (ix2 r n), x3 (ix2 r n),
    x0 (ix2 r n) - Ideal.div (∑ k : Fin 32, x0 (ix2 r k)) (max (fl (x6 (ix2 r (0 : Fin 1)))) 1),
    x1 (ix2 r n) - Ideal.div (∑ k : Fin 32, x1 (ix2 r k)) (max (fl (x6 (ix2 r (0 : Fin 1)))) 1),
    x2 (ix2 r n) - Ideal.div (∑ k : Fin 32, x2 (ix2 r k)) (max (fl (x6 (ix2 r (0 : Fin 1)))) 1),
    x0 (ix2 r n) - x4 (ix2 r (0 : Fin 1)), x1 (ix2 r n) - x5 (ix2 r (0 : Fin 1))]

/-- What a grid point stores at (pillar row `r`, channel `o`), from the ten blocks it loads. -/
theorem pooled_apply (x0 x1 x2 x3 : Vec Ideal S400x32 .f32) (x4 x5 : Vec Ideal S400x1 .f32) (x6 : Vec Ideal S400x1 .i32)
    (x7 : Vec Ideal S7x64 .f32) (x8 x9 : Vec Ideal S1x64 .f32) (r : Fin 400) (o : Fin 64) :
    Region.pooled x0 x1 x2 x3 x4 x5 x6 x7 x8 x9 (ix2 r o)
      = (Finset.univ : Finset (Fin 32)).fold max (Ideal.ofBits .f32 0xFF800000#32) (fun n =>
          actKer (blockFeats x0 x1 x2 x3 x4 x5 x6 r n)
            (maskOf (IntOp.cmpi .slt (BitVec.ofNat 32 n.val) (x6 (ix2 r (0 : Fin 1)))))
            (fun k => x7 (ix2 k o)) (x8 (ix2 (0 : Fin 1) o)) (x9 (ix2 (0 : Fin 1) o))) := by
  unfold Region.pooled
  rw [pay1_apply]
  refine congrArg (fun f => Finset.fold max (Ideal.ofBits .f32 0xFF800000#32) f Finset.univ) (funext fun n => ?_)
  rw [pay17_apply, pay14_apply, pay16_apply, pay4_eq, pay5_eq, pay8_apply, pay9_apply, pay10_apply, pay11_apply, pay12_apply,
    pay13_apply, pay7_apply]
  rfl

end Cert.KernelIdeal.Payload

end
-- ==== Proof.LibTrailingUnit.lean ====
/-
  More layout operations read at an index, for the shapes a host program puts around a plane cut out of an array:
  a trailing unit axis dropped (`[a, b, 1] → [a, b]`, `[a, 1] → [a]`), a unit-stride slice along the LAST of three
  axes, and a vector laid as the one row of a matrix by `broadcast_in_dim` (`[a] → [1, a]`). Stated for any extents
  and any element type.
-/
import Idealize.ShloMosaic.Lib.Pipeline.Value
import Idealize.ShloMosaic.Lib.ValueIdx
import Idealize.ShloMosaic.Lib.ValueLayout

namespace Idealize.ShloMosaic.TrailingUnit

open Idealize.ShloMosaic Idealize.ShloMosaic.ValueIdx

variable {α : Type}

/-- An `[a, b, 1]` array cast to `[a, b]` reads, at `(i, j)`, the operand at `(i, j, 0)`. -/
theorem shapeCast_ab1_ab_apply {a b : ℕ} (x : (⟨3, ![a, b, 1]⟩ : Shape).Idx → α) (h : (⟨3, ![a, b, 1]⟩ : Shape).ShapeCasts ⟨2, ![a, b]⟩)
    (i : Fin a) (j : Fin b) : shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A slice along the last of three axes, from offset `o`, reads at `(a, b, j)` the operand at `(a, b, o + j)`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => show a.val = 0 + a.val; omega
    | ⟨1, _⟩ => show b.val = 0 + b.val; omega
    | ⟨2, _⟩ => exact hk)

/-- A vector laid as the one row of a matrix reads, at `(u, i)`, its entry `i`. -/
theorem broadcastInDim_a_1a_apply {a : ℕ} (h : (⟨1, ![a]⟩ : Shape).BroadcastsInDim ⟨2, ![1, a]⟩ ![1])
    (x : (⟨1, ![a]⟩ : Shape).Idx → α) (u : Fin 1) (i : Fin a) :
    broadcastInDim ⟨2, ![1, a]⟩ ![1] h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

end Idealize.ShloMosaic.TrailingUnit
-- ==== Proof.KernelIdealEntry.lean ====
/-
  What the region finds in each window's array: the host lines before it, applied to the arguments and read at an index.

  The four coordinate planes are the argument `[40000, 32, 4]` cut at its last axis; the two centre columns are the
  cell numbers (columns 3 and 2 of the coordinates) as floats times the cell size plus the offsets; the count column is
  the counts; the weight table's seven rows are columns `0 + 7`, `1 + 8`, `2`, …, `6` of the weights; the scale row is
  `γ / √(σ² + ε)` and the bias row `β − μ · scale`.
-/
import proofs.«127579_j42107859370580_2_alg».proof.Proof.KernelIdealRegion
import proofs.«127579_j42107859370580_2_alg».proof.Proof.LibKeepdims
import proofs.«127579_j42107859370580_2_alg».proof.Proof.LibTrailingUnit
import proofs.«127579_j42107859370580_2_alg».proof.Proof.PillarSpec
import Idealize.ShloMosaic.Lib.StableHlo.Run
import Idealize.ShloMosaic.Lib.ValueIdx
import Idealize.ShloMosaic.Lib.ValueLayout

set_option maxRecDepth 16384

noncomputable section

namespace Cert.KernelIdeal.Entry

open Cert.KernelIdeal Cert.KernelIdeal.Gen Cert.KernelIdeal.Region
open Idealize.ShloMosaic Idealize.ShloMosaic.TcCoe Idealize.ShloMosaic.ValueIdx Idealize.ShloMosaic.StableHlo Idealize.SL.Sem
open Idealize.ShloMosaic.Keepdims Idealize.ShloMosaic.TrailingUnit Cert.Pillar

variable (m : (ℓ : Loc nD τ sig) → Buf (Elt Ideal) ℓ) (c : Dev nD)

/-- The eight argument arrays on core `c`. -/
abbrev a0 : VoxA := m ((c.tc : Thread nD τ).loc main_arg0)
abbrev a1 : WA := m ((c.tc : Thread nD τ).loc main_arg1)
abbrev a2 : ChA := m ((c.tc : Thread nD τ).loc main_arg2)
abbrev a3 : ChA := m ((c.tc : Thread nD τ).loc main_arg3)
abbrev a4 : ChA := m ((c.tc : Thread nD τ).loc main_arg4)
abbrev a5 : ChA := m ((c.tc : Thread nD τ).loc main_arg5)
abbrev a6 : CntA := m ((c.tc : Thread nD τ).loc main_arg6)
abbrev a7 : CoordA := m ((c.tc : Thread nD τ).loc main_arg7)

/-- Seven values, one per index below 7, each of its own type. -/
def tup7 {β : Fin 7 → Type} (b0 : β 0) (b1 : β 1) (b2 : β 2) (b3 : β 3) (b4 : β 4) (b5 : β 5) (b6 : β 6) : (k : Fin 7) → β k
  | ⟨0, _⟩ => b0 | ⟨1, _⟩ => b1 | ⟨2, _⟩ => b2 | ⟨3, _⟩ => b3 | ⟨4, _⟩ => b4 | ⟨5, _⟩ => b5 | ⟨6, _⟩ => b6

section Tup7
variable {β : Fin 7 → Type} (b0 : β 0) (b1 : β 1) (b2 : β 2) (b3 : β 3) (b4 : β 4) (b5 : β 5) (b6 : β 6)
theorem tup7_0 : tup7 b0 b1 b2 b3 b4 b5 b6 0 = b0 := rfl
theorem tup7_1 : tup7 b0 b1 b2 b3 b4 b5 b6 1 = b1 := rfl
theorem tup7_2 : tup7 b0 b1 b2 b3 b4 b5 b6 2 = b2 := rfl
theorem tup7_3 : tup7 b0 b1 b2 b3 b4 b5 b6 3 = b3 := rfl
theorem tup7_4 : tup7 b0 b1 b2 b3 b4 b5 b6 4 = b4 := rfl
theorem tup7_5 : tup7 b0 b1 b2 b3 b4 b5 b6 5 = b5 := rfl
theorem tup7_6 : tup7 b0 b1 b2 b3 b4 b5 b6 6 = b6 := rfl
end Tup7

/-- A seven-operand operation's result, each operand's contents at its own reference. -/
theorem nary7_result' {x0 x1 x2 x3 x4 x5 x6 y : Ref sig .tc}
    (f : ((k : Fin 7) → ((![x0, x1, x2, x3, x4, x5, x6] : Fin 7 → Ref sig .tc) k).ty.Contents (Elt Ideal)) → y.ty.Contents (Elt Ideal)) (hxs hy)
    (F : Valuation τ sig (Elt Ideal)) :
    (nary (τ := τ) ![x0, x1, x2, x3, x4, x5, x6] y f hxs hy).result F (no_index (Proc.devRef .tc y))
      = f (tup7 (β := fun k => ((![x0, x1, x2, x3, x4, x5, x6] : Fin 7 → Ref sig .tc) k).ty.Contents (Elt Ideal))
          (F (Proc.devRef .tc x0)) (F (Proc.devRef .tc x1)) (F (Proc.devRef .tc x2)) (F (Proc.devRef .tc x3))
          (F (Proc.devRef .tc x4)) (F (Proc.devRef .tc x5)) (F (Proc.devRef .tc x6))) := by
  rw [nary_result]; congr 1; funext k; fin_cases k <;> rfl

/-- The host lines' results, read off in one pass: each line's result at its own buffer is its function of its operands,
    at any other buffer what was there. -/
macro "entry_simp" : tactic =>
  `(tactic| (simp (disch := decide) only [after_cons, after_nil,
      nullary_result', unary_result', binary_result', reshape_result', nary7_result',
      tup7_0, tup7_1, tup7_2, tup7_3, tup7_4, tup7_5, tup7_6,
      nullary_result_ne', unary_result_ne', binary_result_ne', reshape_result_ne', nary_result_ne']))

/-- A concatenation along the first of two axes, read at `(k, o)`: piece `q`, whose rows start at `pre`, at its own
    row `k'` with `pre + k' = k`. -/
theorem concat_rows_apply {α : Type} {A B : Nat} (xs : List ((s : Shape) × (s.Idx → α)))
    (h : Shape.Concatenates (xs.map (·.1)) ⟨2, ![A, B]⟩ (0 : Fin 2)) (k : Fin A) (o : Fin B)
    (q : Nat) (hq : q < xs.length) (A' : Nat) (x₁ : (⟨2, ![A', B]⟩ : Shape).Idx → α) (hxq : xs[q] = ⟨⟨2, ![A', B]⟩, x₁⟩)
    (pre : Nat)
    (hpre : (((xs.take q).map (·.1)).map fun s => if h : s.rank = (⟨2, ![A, B]⟩ : Shape).rank then s.size ((0 : Fin 2).cast h.symm) else 0).sum = pre)
    (k' : Fin A') (hk : pre + k'.val = k.val) :
    concatenate ⟨2, ![A, B]⟩ 0 xs h (ix2 k o) = x₁ (ix2 k' o) :=
  concatenate_apply_piece 0 xs h (ix2 k o) q hq _ x₁ hxq rfl pre hpre (ix2 k' o)
    (fun b hb => match b with | ⟨0, _⟩ => absurd rfl hb | ⟨1, _⟩ => rfl) hk

/-! ## The coordinate planes -/

set_option maxHeartbeats 2000000 in
theorem plane0 (P : Fin 40000) (n : Fin 32) : V m c main_v1 (ix2 P n) = (a0 m c) (ix3 P n (0 : Fin 4)) := by
  dsimp only [V, hostOps0]
  entry_simp
  exact (shapeCast_ab1_ab_apply _ _ P n).trans (slice3_axis2_apply 0 _ _ P n (0 : Fin 1) (0 : Fin 4) rfl)

set_option maxHeartbeats 2000000 in
theorem plane1 (P : Fin 40000) (n : Fin 32) : V m c main_v3 (ix2 P n) = (a0 m c) (ix3 P n (1 : Fin 4)) := by
  dsimp only [V, hostOps0]
  entry_simp
  exact (shapeCast_ab1_ab_apply _ _ P n).trans (slice3_axis2_apply 1 _ _ P n (0 : Fin 1) (1 : Fin 4) rfl)

set_option maxHeartbeats 2000000 in
theorem plane2 (P : Fin 40000) (n : Fin 32) : V m c main_v5 (ix2 P n) = (a0 m c) (ix3 P n (2 : Fin 4)) := by
  dsimp only [V, hostOps0]
  entry_simp
  exact (shapeCast_ab1_ab_apply _ _ P n).trans (slice3_axis2_apply 2 _ _ P n (0 : Fin 1) (2 : Fin 4) rfl)

set_option maxHeartbeats 2000000 in
theorem plane3 (P : Fin 40000) (n : Fin 32) : V m c main_v7 (ix2 P n) = (a0 m c) (ix3 P n (3 : Fin 4)) := by
  dsimp only [V, hostOps0]
  entry_simp
  exact (shapeCast_ab1_ab_apply _ _ P n).trans (slice3_axis2_apply 3 _ _ P n (0 : Fin 1) (3 : Fin 4) rfl)

/-! ## The pillar centres and the counts -/

/-- A column of the coordinates, as floats. -/
theorem cell_apply (j : Nat) (hs : S40000x4.Slices ![0, j] S40000x1) (hc : S40000x1.ShapeCasts S40000) (jj : Fin 4) (hj : jj.val = j)
    (P : Fin 40000) :
    shapeCast S40000 (extractStridedSlice S40000x1 ![0, j] (a7 m c) hs) hc (ix1 P) = (a7 m c) (ix2 P jj) :=
  (shapeCast_a1_a_apply _ _ P).trans (slice2_axis1_apply j _ hs P (0 : Fin 1) jj (by rw [hj]; rfl))

set_option maxHeartbeats 2000000 in
theorem centreX (P : Fin 40000) (u : Fin 1) : V m c main_v15 (ix2 P u) = cxOf (a7 m c) P := by
  dsimp only [V, hostOps0]
  entry_simp
  refine (shapeCast_a_a1_apply _ _ P u).trans ?_
  show FloatOps.sitofp (F := Ideal) .f32 (shapeCast S40000 (extractStridedSlice S40000x1 ![0, 3] (a7 m c) _) _ (ix1 P)) * cellW + halfW = cxOf _ P
  rw [cell_apply m c 3 _ _ 3 rfl P]
  rfl

set_option maxHeartbeats 2000000 in
theorem centreY (P : Fin 40000) (u : Fin 1) : V m c main_v23 (ix2 P u) = cyOf (a7 m c) P := by
  dsimp only [V, hostOps0]
  entry_simp
  refine (shapeCast_a_a1_apply _ _ P u).trans ?_
  show FloatOps.sitofp (F := Ideal) .f32 (shapeCast S40000 (extractStridedSlice S40000x1 ![0, 2] (a7 m c) _) _ (ix1 P)) * cellW + yoffW = cyOf _ P
  rw [cell_apply m c 2 _ _ 2 rfl P]
  rfl

set_option maxHeartbeats 2000000 in
theorem count (P : Fin 40000) (u : Fin 1) : V m c main_v24 (ix2 P u) = (a6 m c) (ix1 P) := by
  dsimp only [V, hostOps0]
  entry_simp
  exact shapeCast_a_a1_apply _ _ P u

/-! ## The weight table -/

/-- A column of the weights. -/
theorem wcol (j : Nat) (hs : S64x9.Slices ![0, j] S64x1) (jj : Fin 9) (hj : jj.val = j) (o : Fin 64) :
    shapeCast S64 (extractStridedSlice S64x1 ![0, j] (a1 m c) hs) Gen.shapeCasts_S64x1_S64 (ix1 o) = (a1 m c) (ix2 o jj) :=
  (shapeCast_a1_a_apply _ _ o).trans (slice2_axis1_apply j _ hs o (0 : Fin 1) jj (by rw [hj]; rfl))

/-- Two columns of the weights, added. -/
theorem wsum (j1 j2 : Nat) (hs1 : S64x9.Slices ![0, j1] S64x1) (hs2 : S64x9.Slices ![0, j2] S64x1) (jj1 jj2 : Fin 9)
    (h1 : jj1.val = j1) (h2 : jj2.val = j2) (o : Fin 64) :
    addf (F := Ideal) (φ := .f32) (fun i => shapeCast S64 (extractStridedSlice S64x1 ![0, j1] (a1 m c) hs1) Gen.shapeCasts_S64x1_S64 i)
        (fun i => shapeCast S64 (extractStridedSlice S64x1 ![0, j2] (a1 m c) hs2) Gen.shapeCasts_S64x1_S64 i) (ix1 o)
      = a1 m c (ix2 o jj1) + a1 m c (ix2 o jj2) := by
  show shapeCast S64 (extractStridedSlice S64x1 ![0, j1] (a1 m c) hs1) Gen.shapeCasts_S64x1_S64 (ix1 o)
      + shapeCast S64 (extractStridedSlice S64x1 ![0, j2] (a1 m c) hs2) Gen.shapeCasts_S64x1_S64 (ix1 o) = _
  rw [wcol m c j1 hs1 jj1 h1 o, wcol m c j2 hs2 jj2 h2 o]

set_option maxHeartbeats 4000000 in
theorem weights (k : Fin 7) (o : Fin 64) : V m c main_v52 (ix2 k o) = foldW (wOf (a1 m c) o) k := by
  dsimp only [V, hostOps0]
  entry_simp
  fin_cases k
  · refine (concat_rows_apply _ _ _ o 0 (by show 0 < 7; omega) 1 _ rfl 0 rfl (0 : Fin 1) rfl).trans ?_
    exact (broadcastInDim_a_1a_apply Gen.bcast_S64_S1x64_1 _ (0 : Fin 1) o).trans (wsum m c 0 7 _ _ 0 7 rfl rfl o)
  · refine (concat_rows_apply _ _ _ o 1 (by show 1 < 7; omega) 1 _ rfl 1 rfl (0 : Fin 1) rfl).trans ?_
    exact (broadcastInDim_a_1a_apply Gen.bcast_S64_S1x64_1 _ (0 : Fin 1) o).trans (wsum m c 1 8 _ _ 1 8 rfl rfl o)
  · refine (concat_rows_apply _ _ _ o 2 (by show 2 < 7; omega) 1 _ rfl 2 rfl (0 : Fin 1) rfl).trans ?_
    exact (broadcastInDim_a_1a_apply Gen.bcast_S64_S1x64_1 _ (0 : Fin 1) o).trans (wcol m c 2 _ 2 rfl o)
  · refine (concat_rows_apply _ _ _ o 3 (by show 3 < 7; omega) 1 _ rfl 3 rfl (0 : Fin 1) rfl).trans ?_
    exact (broadcastInDim_a_1a_apply Gen.bcast_S64_S1x64_1 _ (0 : Fin 1) o).trans (wcol m c 3 _ 3 rfl o)
  · refine (concat_rows_apply _ _ _ o 4 (by show 4 < 7; omega) 1 _ rfl 4 rfl (0 : Fin 1) rfl).trans ?_
    exact (broadcastInDim_a_1a_apply Gen.bcast_S64_S1x64_1 _ (0 : Fin 1) o).trans (wcol m c 4 _ 4 rfl o)
  · refine (concat_rows_apply _ _ _ o 5 (by show 5 < 7; omega) 1 _ rfl 5 rfl (0 : Fin 1) rfl).trans ?_
    exact (broadcastInDim_a_1a_apply Gen.bcast_S64_S1x64_1 _ (0 : Fin 1) o).trans (wcol m c 5 _ 5 rfl o)
  · refine (concat_rows_apply _ _ _ o 6 (by show 6 < 7; omega) 1 _ rfl 6 rfl (0 : Fin 1) rfl).trans ?_
    exact (broadcastInDim_a_1a_apply Gen.bcast_S64_S1x64_1 _ (0 : Fin 1) o).trans (wcol m c 6 _ 6 rfl o)

/-! ## The scale and the bias -/

set_option maxHeartbeats 2000000 in
theorem scale (u : Fin 1) (o : Fin 64) : V m c main_v57 (ix2 u o) = scaleOf (a2 m c) (a5 m c) o := by
  dsimp only [V, hostOps0]
  entry_simp
  refine (shapeCast_a_1a_apply _ _ u o).trans ?_
  rfl

set_option maxHeartbeats 2000000 in
theorem bias (u : Fin 1) (o : Fin 64) :
    V m c main_v60 (ix2 u o) = (a3 m c) (ix1 o) - (a4 m c) (ix1 o) * scaleOf (a2 m c) (a5 m c) o := by
  dsimp only [V, hostOps0]
  entry_simp
  refine (shapeCast_a_1a_apply _ _ u o).trans ?_
  rfl

end Cert.KernelIdeal.Entry

end
-- ==== Proof.KernelIdealValue.lean ====
/-
  From blocks to the array: what the idealized kernel's result array holds after the run.

  Grid point `t` (of 100) works on pillars `400·t … 400·t + 399`: row `r` of each of its pillar-indexed blocks is
  pillar `400·t + r` of the corresponding array, and the three small tables are handed whole. So the block it writes
  back, read at (row `r`, channel `o`), is the pooled feature of pillar `400·t + r`, channel `o`, in the folded
  form (`actK`), as a function of the eight argument arrays. The 100 blocks tile the `[40000, 64]` result — pillar `P`
  lies in block `P / 400` —, so after the run the result array is that function of the arguments at every index.
-/
import proofs.«127579_j42107859370580_2_alg».proof.Proof.KernelIdealPayload
import proofs.«127579_j42107859370580_2_alg».proof.Proof.KernelIdealEntry
import Idealize.ShloMosaic.Lib.Pipeline.Value

set_option maxRecDepth 16384

noncomputable section

namespace Cert.KernelIdeal.Pooled

open Cert.KernelIdeal Cert.KernelIdeal.Gen Cert.KernelIdeal.Region Cert.KernelIdeal.Payload
open Idealize.ShloMosaic Idealize.ShloMosaic.TcCoe Idealize.ShloMosaic.ValueIdx Cert.Pillar
open Idealize.SL Idealize.SL.Sem
open Idealize.ShloMosaic.Pipeline (Dat)

variable (m : (ℓ : Loc nD τ sig) → Buf (Elt Ideal) ℓ) (ρ : Dev nD → PrngReg)

/-- The result array as a function of the argument arrays: the pooled features in the folded form. -/
def pooledKernel (c : Dev nD) : S40000x64.Idx → EReal := fun i =>
  pooledOf (actK (Entry.a0 m c) (Entry.a1 m c) (Entry.a2 m c)
    (Entry.a3 m c) (Entry.a4 m c) (Entry.a5 m c)
    (Entry.a6 m c) (Entry.a7 m c)) (i 0) (i 1)

/-- The pillar that row `r` of point `t`'s blocks holds. -/
def pillar (t : Fin cfg0.N) (r : Fin 400) : Fin 40000 :=
  ⟨t.val * 400 + r.val, by have := t.isLt; have h : cfg0.N = 100 := N_0; have := r.isLt; omega⟩

theorem hz : (![0, 0] : Fin 2 → Nat) = fun _ => 0 := funext fun a => by fin_cases a <;> rfl

/-- The printed index maps, decided over the grid: the pillar-indexed windows are at block `t` along the pillars and
    block 0 along their other axis; the three tables are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_10.index t (0 : Fin 2) = t.val ∧ win0_10.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## Each window's block entry is an entry of the argument arrays -/

theorem blk0 (c : Dev nD) (t : Fin cfg0.N) (r : Fin 400) (n : Fin 32) :
    iblk m c 0 t (ix2 r n) = (Entry.a0 m c) (ix3 (pillar t r) n (0 : Fin 4)) := by
  obtain ⟨f0a, f0b, f1a, f1b, f2a, f2b, f3a, f3b, f4a, f4b, f5a, f5b, f6a, f6b, f10a, f10b, f7a, f7b, f8a, f8b, f9a, f9b⟩ := idx_facts t
  show V m c main_v1 (((cfg0.win 0).blk t).view.emb (ix2 r n)) = _
  have e : ((cfg0.win 0).blk t).view.emb (ix2 r n) = ix2 (pillar t r) n := by
    funext a; apply Fin.ext
    match a with
    | ⟨0, _⟩ => show win0_0.index t (0 : Fin 2) * 400 + 1 * r.val = t.val * 400 + r.val; rw [f0a]; omega
    | ⟨1, _⟩ => show win0_0.index t (1 : Fin 2) * 32 + 1 * n.val = n.val; rw [f0b]; omega
  rw [e]; exact Entry.plane0 m c (pillar t r) n
theorem blk1 (c : Dev nD) (t : Fin cfg0.N) (r : Fin 400) (n : Fin 32) :
    iblk m c 1 t (ix2 r n) = (Entry.a0 m c) (ix3 (pillar t r) n (1 : Fin 4)) := by
  obtain ⟨f0a, f0b, f1a, f1b, f2a, f2b, f3a, f3b, f4a, f4b, f5a, f5b, f6a, f6b, f10a, f10b, f7a, f7b, f8a, f8b, f9a, f9b⟩ := idx_facts t
  show V m c main_v3 (((cfg0.win 1).blk t).view.emb (ix2 r n)) = _
  have e : ((cfg0.win 1).blk t).view.emb (ix2 r n) = ix2 (pillar t r) n := by
    funext a; apply Fin.ext
    match a with
    | ⟨0, _⟩ => show win0_1.index t (0 : Fin 2) * 400 + 1 * r.val = t.val * 400 + r.val; rw [f1a]; omega
    | ⟨1, _⟩ => show win0_1.index t (1 : Fin 2) * 32 + 1 * n.val = n.val; rw [f1b]; omega
  rw [e]; exact Entry.plane1 m c (pillar t r) n
theorem blk2 (c : Dev nD) (t : Fin cfg0.N) (r : Fin 400) (n : Fin 32) :
    iblk m c 2 t (ix2 r n) = (Entry.a0 m c) (ix3 (pillar t r) n (2 : Fin 4)) := by
  obtain ⟨f0a, f0b, f1a, f1b, f2a, f2b, f3a, f3b, f4a, f4b, f5a, f5b, f6a, f6b, f10a, f10b, f7a, f7b, f8a, f8b, f9a, f9b⟩ := idx_facts t
  show V m c main_v5 (((cfg0.win 2).blk t).view.emb (ix2 r n)) = _
  have e : ((cfg0.win 2).blk t).view.emb (ix2 r n) = ix2 (pillar t r) n := by
    funext a; apply Fin.ext
    match a with
    | ⟨0, _⟩ => show win0_2.index t (0 : Fin 2) * 400 + 1 * r.val = t.val * 400 + r.val; rw [f2a]; omega
    | ⟨1, _⟩ => show win0_2.index t (1 : Fin 2) * 32 + 1 * n.val = n.val; rw [f2b]; omega
  rw [e]; exact Entry.plane2 m c (pillar t r) n
theorem blk3 (c : Dev nD) (t : Fin cfg0.N) (r : Fin 400) (n : Fin 32) :
    iblk m c 3 t (ix2 r n) = (Entry.a0 m c) (ix3 (pillar t r) n (3 : Fin 4)) := by
  obtain ⟨f0a, f0b, f1a, f1b, f2a, f2b, f3a, f3b, f4a, f4b, f5a, f5b, f6a, f6b, f10a, f10b, f7a, f7b, f8a, f8b, f9a, f9b⟩ := idx_facts t
  show V m c main_v7 (((cfg0.win 3).blk t).view.emb (ix2 r n)) = _
  have e : ((cfg0.win 3).blk t).view.emb (ix2 r n) = ix2 (pillar t r) n := by
    funext a; apply Fin.ext
    match a with
    | ⟨0, _⟩ => show win0_3.index t (0 : Fin 2) * 400 + 1 * r.val = t.val * 400 + r.val; rw [f3a]; omega
    | ⟨1, _⟩ => show win0_3.index t (1 : Fin 2) * 32 + 1 * n.val = n.val; rw [f3b]; omega
  rw [e]; exact Entry.plane3 m c (pillar t r) n
theorem blk4 (c : Dev nD) (t : Fin cfg0.N) (r : Fin 400) (u : Fin 1) :
    iblk m c 4 t (ix2 r u) = cxOf (Entry.a7 m c) (pillar t r) := by
  obtain ⟨f0a, f0b, f1a, f1b, f2a, f2b, f3a, f3b, f4a, f4b, f5a, f5b, f6a, f6b, f10a, f10b, f7a, f7b, f8a, f8b, f9a, f9b⟩ := idx_facts t
  show V m c main_v15 (((cfg0.win 4).blk t).view.emb (ix2 r u)) = _
  have e : ((cfg0.win 4).blk t).view.emb (ix2 r u) = ix2 (pillar t r) u := by
    funext a; apply Fin.ext
    match a with
    | ⟨0, _⟩ => show win0_4.index t (0 : Fin 2) * 400 + 1 * r.val = t.val * 400 + r.val; rw [f4a]; omega
    | ⟨1, _⟩ => show win0_4.index t (1 : Fin 2) * 1 + 1 * u.val = u.val; rw [f4b]; omega
  rw [e]; exact Entry.centreX m c (pillar t r) u
theorem blk5 (c : Dev nD) (t : Fin cfg0.N) (r : Fin 400) (u : Fin 1) :
    iblk m c 5 t (ix2 r u) = cyOf (Entry.a7 m c) (pillar t r) := by
  obtain ⟨f0a, f0b, f1a, f1b, f2a, f2b, f3a, f3b, f4a, f4b, f5a, f5b, f6a, f6b, f10a, f10b, f7a, f7b, f8a, f8b, f9a, f9b⟩ := idx_facts t
  show V m c main_v23 (((cfg0.win 5).blk t).view.emb (ix2 r u)) = _
  have e : ((cfg0.win 5).blk t).view.emb (ix2 r u) = ix2 (pillar t r) u := by
    funext a; apply Fin.ext
    match a with
    | ⟨0, _⟩ => show win0_5.index t (0 : Fin 2) * 400 + 1 * r.val = t.val * 400 + r.val; rw [f5a]; omega
    | ⟨1, _⟩ => show win0_5.index t (1 : Fin 2) * 1 + 1 * u.val = u.val; rw [f5b]; omega
  rw [e]; exact Entry.centreY m c (pillar t r) u
theorem blk6 (c : Dev nD) (t : Fin cfg0.N) (r : Fin 400) (u : Fin 1) :
    iblk m c 6 t (ix2 r u) = (Entry.a6 m c) (ix1 (pillar t r)) := by
  obtain ⟨f0a, f0b, f1a, f1b, f2a, f2b, f3a, f3b, f4a, f4b, f5a, f5b, f6a, f6b, f10a, f10b, f7a, f7b, f8a, f8b, f9a, f9b⟩ := idx_facts t
  show V m c main_v24 (((cfg0.win 6).blk t).view.emb (ix2 r u)) = _
  have e : ((cfg0.win 6).blk t).view.emb (ix2 r u) = ix2 (pillar t r) u := by
    funext a; apply Fin.ext
    match a with
    | ⟨0, _⟩ => show win0_6.index t (0 : Fin 2) * 400 + 1 * r.val = t.val * 400 + r.val; rw [f6a]; omega
    | ⟨1, _⟩ => show win0_6.index t (1 : Fin 2) * 1 + 1 * u.val = u.val; rw [f6b]; omega
  rw [e]; exact Entry.count m c (pillar t r) u
theorem blk7 (c : Dev nD) (t : Fin cfg0.N) (k : Fin 7) (o : Fin 64) :
    iblk m c 7 t (ix2 k o) = foldW (wOf (Entry.a1 m c) o) k := by
  obtain ⟨f0a, f0b, f1a, f1b, f2a, f2b, f3a, f3b, f4a, f4b, f5a, f5b, f6a, f6b, f10a, f10b, f7a, f7b, f8a, f8b, f9a, f9b⟩ := idx_facts t
  show V m c main_v52 (((cfg0.win 7).blk t).view.emb (ix2 k o)) = _
  have e : ((cfg0.win 7).blk t).view.emb (ix2 k o) = ix2 k o := by
    funext a; apply Fin.ext
    match a with
    | ⟨0, _⟩ => show win0_7.index t (0 : Fin 2) * 7 + 1 * k.val = k.val; rw [f7a]; omega
    | ⟨1, _⟩ => show win0_7.index t (1 : Fin 2) * 64 + 1 * o.val = o.val; rw [f7b]; omega
  rw [e]; exact Entry.weights m c k o
theorem blk8 (c : Dev nD) (t : Fin cfg0.N) (k : Fin 1) (o : Fin 64) :
    iblk m c 8 t (ix2 k o) = scaleOf (Entry.a2 m c) (Entry.a5 m c) o := by
  obtain ⟨f0a, f0b, f1a, f1b, f2a, f2b, f3a, f3b, f4a, f4b, f5a, f5b, f6a, f6b, f10a, f10b, f7a, f7b, f8a, f8b, f9a, f9b⟩ := idx_facts t
  show V m c main_v57 (((cfg0.win 8).blk t).view.emb (ix2 k o)) = _
  have e : ((cfg0.win 8).blk t).view.emb (ix2 k o) = ix2 k o := by
    funext a; apply Fin.ext
    match a with
    | ⟨0, _⟩ => show win0_8.index t (0 : Fin 2) * 1 + 1 * k.val = k.val; rw [f8a]; omega
    | ⟨1, _⟩ => show win0_8.index t (1 : Fin 2) * 64 + 1 * o.val = o.val; rw [f8b]; omega
  rw [e]; exact Entry.scale m c k o
theorem blk9 (c : Dev nD) (t : Fin cfg0.N) (k : Fin 1) (o : Fin 64) :
    iblk m c 9 t (ix2 k o) = (Entry.a3 m c) (ix1 o) - (Entry.a4 m c) (ix1 o) * scaleOf (Entry.a2 m c) (Entry.a5 m c) o := by
  obtain ⟨f0a, f0b, f1a, f1b, f2a, f2b, f3a, f3b, f4a, f4b, f5a, f5b, f6a, f6b, f10a, f10b, f7a, f7b, f8a, f8b, f9a, f9b⟩ := idx_facts t
  show V m c main_v60 (((cfg0.win 9).blk t).view.emb (ix2 k o)) = _
  have e : ((cfg0.win 9).blk t).view.emb (ix2 k o) = ix2 k o := by
    funext a; apply Fin.ext
    match a with
    | ⟨0, _⟩ => show win0_9.index t (0 : Fin 2) * 1 + 1 * k.val = k.val; rw [f9a]; omega
    | ⟨1, _⟩ => show win0_9.index t (1 : Fin 2) * 64 + 1 * o.val = o.val; rw [f9b]; omega
  rw [e]; exact Entry.bias m c k o

/-- The output block's element (row `r`, channel `o`) at point `t` is the result array's (pillar, `o`). -/
theorem emb_out (t : Fin cfg0.N) (r : Fin 400) (o : Fin 64) :
    ((cfg0.win 10).blk t).view.emb (ix2 r o) = ix2 (pillar t r) o := by
  obtain ⟨f0a, f0b, f1a, f1b, f2a, f2b, f3a, f3b, f4a, f4b, f5a, f5b, f6a, f6b, f10a, f10b, f7a, f7b, f8a, f8b, f9a, f9b⟩ := idx_facts t
  funext a; apply Fin.ext
  match a with
  | ⟨0, _⟩ => show win0_10.index t (0 : Fin 2) * 400 + 1 * r.val = t.val * 400 + r.val; rw [f10a]; omega
  | ⟨1, _⟩ => show win0_10.index t (1 : Fin 2) * 64 + 1 * o.val = o.val; rw [f10b]; omega

/-! ## What a point writes back -/

set_option maxHeartbeats 1000000 in
/-- Point `t` writes back block `t` of `pooledKernel`. -/
theorem flushed_eq (c : Dev nD) (t : Fin cfg0.N) :
    (dats m 0 c).flushed 10 t = ((cfg0.win 10).blk t).view.read (Elt Ideal) (pooledKernel m c) := by
  show (cfg0.win 10).cut (grid0.coords t) ((dats m 0 c).after 10 t) = _
  rw [after10]
  unfold outBlock
  rw [View.canon_unit_zero hz]
  simp only [View.ld_unit_zero (S := S400x32) hz, View.ld_unit_zero (S := S400x1) hz, View.ld_unit_zero (S := S7x64) hz,
    View.ld_unit_zero (S := S1x64) hz]
  funext j
  obtain ⟨r, o, rfl⟩ : ∃ (r : Fin 400) (o : Fin 64), j = ix2 r o := ⟨j 0, j 1, eq_ix2 j⟩
  show pooled (iblk m c 0 t) (iblk m c 1 t) (iblk m c 2 t) (iblk m c 3 t) (iblk m c 4 t) (iblk m c 5 t) (iblk m c 6 t)
      (iblk m c 7 t) (iblk m c 8 t) (iblk m c 9 t) (ix2 r o) = pooledKernel m c (((cfg0.win 10).blk t).view.emb (ix2 r o))
  rw [pooled_apply, emb_out]
  unfold pooledKernel pooledOf
  refine congrArg (fun f => Finset.fold max (Ideal.ofBits .f32 0xFF800000#32) f Finset.univ) (funext fun n => ?_)
  unfold blockFeats actK
  simp only [blk0, blk1, blk2, blk3, blk4, blk5, blk6, blk7, blk8, blk9]
  rfl

/-! ## The blocks tile the result -/

theorem mem_blk (t : Fin cfg0.N) (i : S40000x64.Idx) :
    i ∈ ((cfg0.win 10).blk t).view.set ↔ ∀ a : Fin 2, win0_10.index t a * S400x64.size a ≤ (i a).val ∧ (i a).val < win0_10.index t a * S400x64.size a + S400x64.size a := by
  show i ∈ ((View.whole main_v61).slice (win0_10.rect t)).set ↔ _
  rw [View.set_slice_whole, Rect.mem_set_unit]
  exact Iff.rfl

theorem cover (i : S40000x64.Idx) : ∃ t : Fin cfg0.N, (cfg0.win 10).flush t = true ∧ i ∈ ((cfg0.win 10).blk t).view.set := by
  have hi0 : (i 0).val < 40000 := (i 0).isLt
  have hi1 : (i 1).val < 64 := (i 1).isLt
  have hN : cfg0.N = 100 := N_0
  let t : Fin cfg0.N := ⟨(i 0).val / 400, by rw [hN]; omega⟩
  obtain ⟨f0a, f0b, f1a, f1b, f2a, f2b, f3a, f3b, f4a, f4b, f5a, f5b, f6a, f6b, f10a, f10b, f7a, f7b, f8a, f8b, f9a, f9b⟩ := idx_facts t
  refine ⟨t, flush0_10 t, ?_⟩
  rw [mem_blk]
  intro a
  match a with
  | ⟨0, _⟩ =>
    show win0_10.index t (0 : Fin 2) * 400 ≤ (i 0).val ∧ (i 0).val < win0_10.index t (0 : Fin 2) * 400 + 400
    rw [f10a]; show (i 0).val / 400 * 400 ≤ (i 0).val ∧ (i 0).val < (i 0).val / 400 * 400 + 400; omega
  | ⟨1, _⟩ =>
    show win0_10.index t (1 : Fin 2) * 64 ≤ (i 1).val ∧ (i 1).val < win0_10.index t (1 : Fin 2) * 64 + 64
    rw [f10b]; omega

/-- The result array after the run. -/
theorem final (c : Dev nD) : (dats m 0 c).arrAt 10 cfg0.N = pooledKernel m c :=
  (dats m 0 c).arrAt_eq_of_cover 10 (pooledKernel m c) (fun t _ => flushed_eq m c t) (cover)

/-! ## The run, read -/

/-- Every weakly fair execution of the idealized kernel's @main terminates with the result array at `pooledKernel` of
    the arguments and the arguments unchanged. -/
theorem run : θ_run defs (onTc (τ := τ) (main (F := Ideal))) ⟨m, fun _ => 0, ρ⟩ fun r => ∀ c : Dev nD,
      r.2.mem ((c.tc : Thread nD τ).loc main_v61) = pooledKernel m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 10).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Pooled

end
-- ==== Proof.RefIndexMaps.lean ====
/-
  The reference's layout operations move an element from one index to another: a slice shifts a coordinate by its offset,
  a broadcast drops the coordinates it repeats along, a reshape between shapes that differ by unit axes keeps the others.
  The stage-by-stage reading of the reference names each such map; here each is written out on an index given by its
  coordinates: the image is again an index given by coordinates, each a coordinate of the argument, a constant, or a
  coordinate plus the slice's offset.
-/
import proofs.«127579_j42107859370580_2_alg».proof.Proof.Gen.ReferenceIdeal.Read
import Idealize.ShloMosaic.Lib.ValueIdx

namespace Cert.ReferenceIdeal.IndexMaps

open Cert.ReferenceIdeal Cert.ReferenceIdeal.Read Idealize.ShloMosaic Idealize.ShloMosaic.ValueIdx

theorem n_idx_main_v1 (c0 : Fin 40000) (c1 : Fin 1) (c2 : Fin 1) :
    idx_main_v1 (ix3 c0 c1 c2) = ix1 c0 :=
  funext fun a => match a with | ⟨0, _⟩ => rfl

theorem n_idx_main_v2 (c0 : Fin 40000) (c1 : Fin 32) (c2 : Fin 3) :
    idx_main_v2 (ix3 c0 c1 c2) = ix3 c0 c1 (⟨c2.val, by have := c0.isLt; have := c1.isLt; have := c2.isLt; omega⟩ : Fin 4) :=
  funext fun a => match a with | ⟨0, _⟩ => rfl | ⟨1, _⟩ => rfl | ⟨2, _⟩ => rfl

theorem n_idx_main_v3 (c0 : Fin 40000) (c1 : Fin 3) (k : Fin 32) :
    idx_main_v3 (ix2 c0 c1) k = ix3 c0 k c1 :=
  funext fun a => match a with | ⟨0, _⟩ => rfl | ⟨1, _⟩ => rfl | ⟨2, _⟩ => rfl

theorem n_idx_main_v4 (c0 : Fin 40000) (c1 : Fin 1) (c2 : Fin 3) :
    idx_main_v4 (ix3 c0 c1 c2) = ix2 c0 c2 :=
  funext fun a => match a with | ⟨0, _⟩ => rfl | ⟨1, _⟩ => rfl

theorem n_idx_main_v5 (c0 : Fin 40000) (c1 : Fin 1) (c2 : Fin 3) :
    idx_main_v5 (ix3 c0 c1 c2) = ix3 c0 (⟨0, by have := c0.isLt; have := c1.isLt; have := c2.isLt; omega⟩ : Fin 1) (⟨0, by have := c0.isLt; have := c1.isLt; have := c2.isLt; omega⟩ : Fin 1) :=
  funext fun a => match a with | ⟨0, _⟩ => rfl | ⟨1, _⟩ => rfl | ⟨2, _⟩ => rfl

theorem n_idx_main_v7 (c0 : Fin 40000) (c1 : Fin 32) (c2 : Fin 3) :
    idx_main_v7 (ix3 c0 c1 c2) = ix3 c0 c1 (⟨c2.val, by have := c0.isLt; have := c1.isLt; have := c2.isLt; omega⟩ : Fin 4) :=
  funext fun a => match a with | ⟨0, _⟩ => rfl | ⟨1, _⟩ => rfl | ⟨2, _⟩ => rfl

theorem n_idx_main_v8 (c0 : Fin 40000) (c1 : Fin 32) (c2 : Fin 3) :
    idx_main_v8 (ix3 c0 c1 c2) = ix3 c0 (⟨0, by have := c0.isLt; have := c1.isLt; have := c2.isLt; omega⟩ : Fin 1) c2 :=
  funext fun a => match a with | ⟨0, _⟩ => rfl | ⟨1, _⟩ => rfl | ⟨2, _⟩ => rfl

theorem n_idx_main_v10 (c0 : Fin 40000) (c1 : Fin 1) :
    idx_main_v10 (ix2 c0 c1) = ix2 c0 (⟨3 + c1.val, by have := c0.isLt; have := c1.isLt; omega⟩ : Fin 4) :=
  funext fun a => match a with | ⟨0, _⟩ => rfl | ⟨1, _⟩ => rfl

theorem n_idx_main_v11 (c0 : Fin 40000) :
    idx_main_v11 (ix1 c0) = ix2 (⟨(c0.val) / 1, by have := c0.isLt; omega⟩ : Fin 40000) (⟨0, by have := c0.isLt; omega⟩ : Fin 1) :=
  funext fun a => match a with | ⟨0, _⟩ => rfl | ⟨1, _⟩ => rfl

theorem n_idx_main_v13 (c0 : Fin 40000) (c1 : Fin 1) :
    idx_main_v13 (ix2 c0 c1) = ix1 c0 :=
  funext fun a => match a with | ⟨0, _⟩ => rfl

theorem n_idx_main_v18 (c0 : Fin 40000) (c1 : Fin 1) :
    idx_main_v18 (ix2 c0 c1) = ix2 c0 (⟨2 + c1.val, by have := c0.isLt; have := c1.isLt; omega⟩ : Fin 4) :=
  funext fun a => match a with | ⟨0, _⟩ => rfl | ⟨1, _⟩ => rfl

theorem n_idx_main_v19 (c0 : Fin 40000) :
    idx_main_v19 (ix1 c0) = ix2 (⟨(c0.val) / 1, by have := c0.isLt; omega⟩ : Fin 40000) (⟨0, by have := c0.isLt; omega⟩ : Fin 1) :=
  funext fun a => match a with | ⟨0, _⟩ => rfl | ⟨1, _⟩ => rfl

theorem n_idx_main_v21 (c0 : Fin 40000) (c1 : Fin 1) :
    idx_main_v21 (ix2 c0 c1) = ix1 c0 :=
  funext fun a => match a with | ⟨0, _⟩ => rfl

theorem n_idx_main_v26 (c0 : Fin 40000) (c1 : Fin 32) (c2 : Fin 1) :
    idx_main_v26 (ix3 c0 c1 c2) = ix3 c0 c1 (⟨c2.val, by have := c0.isLt; have := c1.isLt; have := c2.isLt; omega⟩ : Fin 4) :=
  funext fun a => match a with | ⟨0, _⟩ => rfl | ⟨1, _⟩ => rfl | ⟨2, _⟩ => rfl

theorem n_idx_main_v27 (c0 : Fin 40000) (c1 : Fin 32) :
    idx_main_v27 (ix2 c0 c1) = ix3 (⟨(c0.val * 32 + c1.val) / 32, by have := c0.isLt; have := c1.isLt; omega⟩ : Fin 40000) (⟨(c0.val * 32 + c1.val) / 1 % 32, by have := c0.isLt; have := c1.isLt; omega⟩ : Fin 32) (⟨0, by have := c0.isLt; have := c1.isLt; omega⟩ : Fin 1) :=
  funext fun a => match a with | ⟨0, _⟩ => rfl | ⟨1, _⟩ => rfl | ⟨2, _⟩ => rfl

theorem n_idx_main_v28 (c0 : Fin 40000) (c1 : Fin 32) :
    idx_main_v28 (ix2 c0 c1) = ix2 c0 (⟨0, by have := c0.isLt; have := c1.isLt; omega⟩ : Fin 1) :=
  funext fun a => match a with | ⟨0, _⟩ => rfl | ⟨1, _⟩ => rfl

theorem n_idx_main_v30 (c0 : Fin 40000) (c1 : Fin 32) (c2 : Fin 1) :
    idx_main_v30 (ix3 c0 c1 c2) = ix3 c0 c1 (⟨1 + c2.val, by have := c0.isLt; have := c1.isLt; have := c2.isLt; omega⟩ : Fin 4) :=
  funext fun a => match a with | ⟨0, _⟩ => rfl | ⟨1, _⟩ => rfl | ⟨2, _⟩ => rfl

theorem n_idx_main_v31 (c0 : Fin 40000) (c1 : Fin 32) :
    idx_main_v31 (ix2 c0 c1) = ix3 (⟨(c0.val * 32 + c1.val) / 32, by have := c0.isLt; have := c1.isLt; omega⟩ : Fin 40000) (⟨(c0.val * 32 + c1.val) / 1 % 32, by have := c0.isLt; have := c1.isLt; omega⟩ : Fin 32) (⟨0, by have := c0.isLt; have := c1.isLt; omega⟩ : Fin 1) :=
  funext fun a => match a with | ⟨0, _⟩ => rfl | ⟨1, _⟩ => rfl | ⟨2, _⟩ => rfl

theorem n_idx_main_v32 (c0 : Fin 40000) (c1 : Fin 32) :
    idx_main_v32 (ix2 c0 c1) = ix2 c0 (⟨0, by have := c0.isLt; have := c1.isLt; omega⟩ : Fin 1) :=
  funext fun a => match a with | ⟨0, _⟩ => rfl | ⟨1, _⟩ => rfl

theorem n_idx_main_v34 (c0 : Fin 40000) (c1 : Fin 32) (c2 : Fin 1) :
    idx_main_v34 (ix3 c0 c1 c2) = ix2 c0 c1 :=
  funext fun a => match a with | ⟨0, _⟩ => rfl | ⟨1, _⟩ => rfl

theorem n_idx_main_v35 (c0 : Fin 40000) (c1 : Fin 32) (c2 : Fin 1) :
    idx_main_v35 (ix3 c0 c1 c2) = ix2 c0 c1 :=
  funext fun a => match a with | ⟨0, _⟩ => rfl | ⟨1, _⟩ => rfl

theorem n_idx_main_v36 (c0 : Fin 40000) (c1 : Fin 32) (c2 : Fin 2) :
    idx_main_v36 (ix3 c0 c1 c2) = ix3 c0 c1 (⟨2 + c2.val, by have := c0.isLt; have := c1.isLt; have := c2.isLt; omega⟩ : Fin 4) :=
  funext fun a => match a with | ⟨0, _⟩ => rfl | ⟨1, _⟩ => rfl | ⟨2, _⟩ => rfl

theorem n_idx_main_v37 (c0 : Fin 40000) (c1 : Fin 32) (c2 : Fin 1) :
    idx_main_v37 (ix3 c0 c1 c2) = ix2 c0 c1 :=
  funext fun a => match a with | ⟨0, _⟩ => rfl | ⟨1, _⟩ => rfl

theorem n_idx_main_v38 (c0 : Fin 40000) (c1 : Fin 32) (c2 : Fin 1) :
    idx_main_v38 (ix3 c0 c1 c2) = ix2 c0 c1 :=
  funext fun a => match a with | ⟨0, _⟩ => rfl | ⟨1, _⟩ => rfl

theorem n_idx_main_v41 (c0 : Fin 1) (c1 : Fin 32) :
    idx_main_v41 (ix2 c0 c1) = ix1 c1 :=
  funext fun a => match a with | ⟨0, _⟩ => rfl

theorem n_idx_main_v42 (c0 : Fin 40000) (c1 : Fin 1) :
    idx_main_v42 (ix2 c0 c1) = ix1 c0 :=
  funext fun a => match a with | ⟨0, _⟩ => rfl

theorem n_idx_main_v43 (c0 : Fin 40000) (c1 : Fin 32) :
    idx_main_v43 (ix2 c0 c1) = ix2 (⟨0, by have := c0.isLt; have := c1.isLt; omega⟩ : Fin 1) c1 :=
  funext fun a => match a with | ⟨0, _⟩ => rfl | ⟨1, _⟩ => rfl

theorem n_idx_main_v44 (c0 : Fin 40000) (c1 : Fin 32) :
    idx_main_v44 (ix2 c0 c1) = ix2 c0 (⟨0, by have := c0.isLt; have := c1.isLt; omega⟩ : Fin 1) :=
  funext fun a => match a with | ⟨0, _⟩ => rfl | ⟨1, _⟩ => rfl

theorem n_idx_main_v47 (c0 : Fin 40000) (c1 : Fin 32) (c2 : Fin 1) :
    idx_main_v47 (ix3 c0 c1 c2) = ix2 c0 c1 :=
  funext fun a => match a with | ⟨0, _⟩ => rfl | ⟨1, _⟩ => rfl

theorem n_idx_main_v48 (c0 : Fin 40000) (c1 : Fin 32) (c2 : Fin 9) :
    idx_main_v48 (ix3 c0 c1 c2) = ix3 c0 c1 (⟨0, by have := c0.isLt; have := c1.isLt; have := c2.isLt; omega⟩ : Fin 1) :=
  funext fun a => match a with | ⟨0, _⟩ => rfl | ⟨1, _⟩ => rfl | ⟨2, _⟩ => rfl

theorem n_lidx_main_v50 (c0 : Fin 40000) (c1 : Fin 32) (c2 : Fin 64) (k : Fin 9) :
    lidx_main_v50 (ix3 c0 c1 c2) k = ix3 c0 c1 k :=
  funext fun a => match a with | ⟨0, _⟩ => rfl | ⟨1, _⟩ => rfl | ⟨2, _⟩ => rfl

theorem n_ridx_main_v50 (c0 : Fin 40000) (c1 : Fin 32) (c2 : Fin 64) (k : Fin 9) :
    ridx_main_v50 (ix3 c0 c1 c2) k = ix2 c2 k :=
  funext fun a => match a with | ⟨0, _⟩ => rfl | ⟨1, _⟩ => rfl

theorem n_idx_main_v55 (c0 : Fin 1) (c1 : Fin 1) (c2 : Fin 64) :
    idx_main_v55 (ix3 c0 c1 c2) = ix1 c2 :=
  funext fun a => match a with | ⟨0, _⟩ => rfl

theorem n_idx_main_v56 (c0 : Fin 40000) (c1 : Fin 32) (c2 : Fin 64) :
    idx_main_v56 (ix3 c0 c1 c2) = ix3 (⟨0, by have := c0.isLt; have := c1.isLt; have := c2.isLt; omega⟩ : Fin 1) (⟨0, by have := c0.isLt; have := c1.isLt; have := c2.isLt; omega⟩ : Fin 1) c2 :=
  funext fun a => match a with | ⟨0, _⟩ => rfl | ⟨1, _⟩ => rfl | ⟨2, _⟩ => rfl

theorem n_idx_main_v58 (c0 : Fin 1) (c1 : Fin 1) (c2 : Fin 64) :
    idx_main_v58 (ix3 c0 c1 c2) = ix1 c2 :=
  funext fun a => match a with | ⟨0, _⟩ => rfl

theorem n_idx_main_v59 (c0 : Fin 40000) (c1 : Fin 32) (c2 : Fin 64) :
    idx_main_v59 (ix3 c0 c1 c2) = ix3 (⟨0, by have := c0.isLt; have := c1.isLt; have := c2.isLt; omega⟩ : Fin 1) (⟨0, by have := c0.isLt; have := c1.isLt; have := c2.isLt; omega⟩ : Fin 1) c2 :=
  funext fun a => match a with | ⟨0, _⟩ => rfl | ⟨1, _⟩ => rfl | ⟨2, _⟩ => rfl

theorem n_idx_main_v61 (c0 : Fin 1) (c1 : Fin 1) (c2 : Fin 64) :
    idx_main_v61 (ix3 c0 c1 c2) = ix1 c2 :=
  funext fun a => match a with | ⟨0, _⟩ => rfl

theorem n_idx_main_v62 (c0 : Fin 40000) (c1 : Fin 32) (c2 : Fin 64) :
    idx_main_v62 (ix3 c0 c1 c2) = ix3 (⟨0, by have := c0.isLt; have := c1.isLt; have := c2.isLt; omega⟩ : Fin 1) (⟨0, by have := c0.isLt; have := c1.isLt; have := c2.isLt; omega⟩ : Fin 1) c2 :=
  funext fun a => match a with | ⟨0, _⟩ => rfl | ⟨1, _⟩ => rfl | ⟨2, _⟩ => rfl

end Cert.ReferenceIdeal.IndexMaps
-- ==== Proof.RefStages.lean ====
/-
  The reference program read at an index: what it computes for pillar `P`, point slot `n` and channel `o` is the
  activation `actR` of the argument arrays there, and its result at `(P, o)` is the maximum of those over the slots.

  The reference builds the nine features as one `[40000, 32, 9]` array by laying six pieces end to end along the
  last axis (x − cx; y − cy; z and intensity; the three coordinates less their means; x − cx and y − cy again), masks it,
  contracts the last axis against the weights' second axis, normalises, clips at 0 and takes the maximum over the slots.
  Read at one index, a piece is reached through the position of the column among the pieces' extents.
-/
import proofs.«127579_j42107859370580_2_alg».proof.Proof.RefIndexMaps
import proofs.«127579_j42107859370580_2_alg».proof.Proof.PillarSpec
import Idealize.ShloMosaic.PureOps.Ideal.Laws

noncomputable section

namespace Cert.ReferenceIdeal.Stages

open Cert.ReferenceIdeal Cert.ReferenceIdeal.Read Cert.ReferenceIdeal.IndexMaps
open Idealize.ShloMosaic Idealize.ShloMosaic.ValueIdx Cert.Pillar

variable (x0 : (⟨S40000x32x4, .f32⟩ : BufTy).Contents (Elt Ideal)) (x1 : (⟨S64x9, .f32⟩ : BufTy).Contents (Elt Ideal))
  (x2 x3 x4 x5 : (⟨S64, .f32⟩ : BufTy).Contents (Elt Ideal)) (x6 : (⟨S40000, .i32⟩ : BufTy).Contents (Elt Ideal))
  (x7 : (⟨S40000x4, .i32⟩ : BufTy).Contents (Elt Ideal))

/-- A concatenation along the last of three axes, read at `(P, n, k)`: piece `q`, whose columns start at `pre`, at
    its own column `k'` with `pre + k' = k`. -/
theorem concat_last_apply {α : Type} {A B C : Nat} (xs : List ((s : Shape) × (s.Idx → α)))
    (h : Shape.Concatenates (xs.map (·.1)) ⟨3, ![A, B, C]⟩ (2 : Fin 3)) (P : Fin A) (n : Fin B) (k : Fin C)
    (q : Nat) (hq : q < xs.length) (C' : Nat) (x₁ : (⟨3, ![A, B, C']⟩ : Shape).Idx → α) (hxq : xs[q] = ⟨⟨3, ![A, B, C']⟩, x₁⟩)
    (pre : Nat)
    (hpre : (((xs.take q).map (·.1)).map fun s => if h : s.rank = (⟨3, ![A, B, C]⟩ : Shape).rank then s.size ((2 : Fin 3).cast h.symm) else 0).sum = pre)
    (k' : Fin C') (hk : pre + k'.val = k.val) :
    concatenate ⟨3, ![A, B, C]⟩ 2 xs h (ix3 P n k) = x₁ (ix3 P n k') :=
  concatenate_apply_piece 2 xs h (ix3 P n k) q hq _ x₁ hxq rfl pre hpre (ix3 P n k')
    (fun b hb => match b with | ⟨0, _⟩ => rfl | ⟨1, _⟩ => rfl | ⟨2, _⟩ => absurd rfl hb) hk

/-! ## Row-major positions of a pillar's slot, read back -/

theorem fin_div_one {N : Nat} (a : Fin N) (h : a.val / 1 < N) : (⟨a.val / 1, h⟩ : Fin N) = a := Fin.ext (Nat.div_one _)

theorem fin_row {A B : Nat} (a : Fin A) (b : Fin B) (h : (a.val * B + b.val) / B < A) : (⟨(a.val * B + b.val) / B, h⟩ : Fin A) = a :=
  Fin.ext (by
    have hb := b.isLt
    show (a.val * B + b.val) / B = a.val
    rw [Nat.mul_comm, Nat.mul_add_div (by omega : B > 0), Nat.div_eq_of_lt hb, Nat.add_zero])

theorem fin_col {A B : Nat} (a : Fin A) (b : Fin B) (h : (a.val * B + b.val) / 1 % B < B) :
    (⟨(a.val * B + b.val) / 1 % B, h⟩ : Fin B) = b :=
  Fin.ext (by
    have hb := b.isLt
    show (a.val * B + b.val) / 1 % B = b.val
    rw [Nat.div_one, Nat.mul_comm, Nat.mul_add_mod, Nat.mod_eq_of_lt hb])

theorem fin_unit (u : Fin 1) : u = 0 := Subsingleton.elim _ _

/-! ## The mask -/

theorem mask_apply (P : Fin 40000) (n : Fin 32) (k : Fin 9) : val_main_v48 (F := Ideal) x6 (ix3 P n k) = maskAt x6 P n := by
  simp only [val_main_v48_apply, val_main_v47_apply, val_main_v46_apply, val_main_v45_apply, val_main_v44_apply, val_main_v43_apply, val_main_v42_apply, val_main_v41_apply, val_main_v40_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62]
  rfl

/-! ## The pillar's centre, and a coordinate less it -/

theorem cx_apply (P : Fin 40000) (u : Fin 1) : val_main_v17 (F := Ideal) x7 (ix2 P u) = cxOf x7 P := by
  obtain rfl := fin_unit u
  simp only [fin_div_one, fin_row, fin_col, val_main_v17_apply, val_main_v16_apply, val_main_cst_1_apply, val_main_v15_apply, val_main_v14_apply, val_main_cst_0_apply, val_main_v13_apply, val_main_v12_apply, val_main_v11_apply, val_main_v10_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62, Ideal.subf_def, Ideal.mulf_def, Ideal.addf_def, Ideal.hostDivf_def, Ideal.ofBits_def, Ideal.maximumf_def, Ideal.hostUnary_sqrt_def]
  rfl

theorem cy_apply (P : Fin 40000) (u : Fin 1) : val_main_v25 (F := Ideal) x7 (ix2 P u) = cyOf x7 P := by
  obtain rfl := fin_unit u
  simp only [fin_div_one, fin_row, fin_col, val_main_v25_apply, val_main_v24_apply, val_main_cst_3_apply, val_main_v23_apply, val_main_v22_apply, val_main_cst_2_apply, val_main_v21_apply, val_main_v20_apply, val_main_v19_apply, val_main_v18_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62, Ideal.subf_def, Ideal.mulf_def, Ideal.addf_def, Ideal.hostDivf_def, Ideal.ofBits_def, Ideal.maximumf_def, Ideal.hostUnary_sqrt_def]
  rfl

theorem xc_apply (P : Fin 40000) (n : Fin 32) : val_main_v29 (F := Ideal) x0 x7 (ix2 P n) = x0 (ix3 P n (0 : Fin 4)) - cxOf x7 P := by
  simp only [fin_div_one, fin_row, fin_col, val_main_v29_apply, val_main_v28_apply, val_main_v27_apply, val_main_v26_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62, Ideal.subf_def, Ideal.mulf_def, Ideal.addf_def, Ideal.hostDivf_def, Ideal.ofBits_def, Ideal.maximumf_def, Ideal.hostUnary_sqrt_def, cx_apply]
  rfl

theorem yc_apply (P : Fin 40000) (n : Fin 32) : val_main_v33 (F := Ideal) x0 x7 (ix2 P n) = x0 (ix3 P n (1 : Fin 4)) - cyOf x7 P := by
  simp only [fin_div_one, fin_row, fin_col, val_main_v33_apply, val_main_v32_apply, val_main_v31_apply, val_main_v30_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62, Ideal.subf_def, Ideal.mulf_def, Ideal.addf_def, Ideal.hostDivf_def, Ideal.ofBits_def, Ideal.maximumf_def, Ideal.hostUnary_sqrt_def, cy_apply]
  rfl

/-! ## A coordinate less the pillar's mean of it -/

theorem fc_apply (P : Fin 40000) (n : Fin 32) (j : Fin 3) (j' : Fin 4) (hj : j'.val = j.val) :
    val_main_v9 (F := Ideal) x0 x6 (ix3 P n j) = x0 (ix3 P n j') - Ideal.div (sumOf x0 P j') (fl (x6 (ix1 P))) := by
  have e : (⟨j.val, by have := j.isLt; omega⟩ : Fin 4) = j' := Fin.ext hj.symm
  simp only [val_main_v9_apply, val_main_v8_apply, val_main_v7_apply, val_main_v6_apply, val_main_v5_apply, val_main_v4_apply, val_main_v3_apply, val_main_v2_apply, val_main_v1_apply, val_main_v0_apply, val_main_cst_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62, Ideal.subf_def, Ideal.mulf_def, Ideal.addf_def, Ideal.hostDivf_def, Ideal.ofBits_def, Ideal.maximumf_def, Ideal.hostUnary_sqrt_def, Ideal.ofBits_zero_f32, zero_add, e]
  rfl

/-! ## The nine features -/

theorem feat_apply (P : Fin 40000) (n : Fin 32) (k : Fin 9) :
    val_main_v39 (F := Ideal) x0 x6 x7 (ix3 P n k) = feats x0 x7 (fl (x6 (ix1 P))) P n k := by
  unfold val_main_v39
  fin_cases k
  · refine (concat_last_apply _ _ P n _ 0 (by show 0 < 6; omega) 1 _ rfl 0 rfl (0 : Fin 1) rfl).trans ?_
    simp only [val_main_v34_apply, n_idx_main_v34, xc_apply]; rfl
  · refine (concat_last_apply _ _ P n _ 1 (by show 1 < 6; omega) 1 _ rfl 1 rfl (0 : Fin 1) rfl).trans ?_
    simp only [val_main_v35_apply, n_idx_main_v35, yc_apply]; rfl
  · refine (concat_last_apply _ _ P n _ 2 (by show 2 < 6; omega) 2 _ rfl 2 rfl (0 : Fin 2) rfl).trans ?_
    simp only [val_main_v36_apply, n_idx_main_v36]; rfl
  · refine (concat_last_apply _ _ P n _ 2 (by show 2 < 6; omega) 2 _ rfl 2 rfl (1 : Fin 2) rfl).trans ?_
    simp only [val_main_v36_apply, n_idx_main_v36]; rfl
  · refine (concat_last_apply _ _ P n _ 3 (by show 3 < 6; omega) 3 _ rfl 4 rfl (0 : Fin 3) rfl).trans ?_
    exact fc_apply x0 x6 P n 0 0 rfl
  · refine (concat_last_apply _ _ P n _ 3 (by show 3 < 6; omega) 3 _ rfl 4 rfl (1 : Fin 3) rfl).trans ?_
    exact fc_apply x0 x6 P n 1 1 rfl
  · refine (concat_last_apply _ _ P n _ 3 (by show 3 < 6; omega) 3 _ rfl 4 rfl (2 : Fin 3) rfl).trans ?_
    exact fc_apply x0 x6 P n 2 2 rfl
  · refine (concat_last_apply _ _ P n _ 4 (by show 4 < 6; omega) 1 _ rfl 7 rfl (0 : Fin 1) rfl).trans ?_
    simp only [val_main_v37_apply, n_idx_main_v37, xc_apply]; rfl
  · refine (concat_last_apply _ _ P n _ 5 (by show 5 < 6; omega) 1 _ rfl 8 rfl (0 : Fin 1) rfl).trans ?_
    simp only [val_main_v38_apply, n_idx_main_v38, yc_apply]; rfl

/-! ## The scale -/

theorem scale_apply (o : Fin 64) : val_main_v54 (F := Ideal) x2 x5 (ix1 o) = scaleOf x2 x5 o := by
  simp only [val_main_v54_apply, val_main_v53_apply, val_main_v52_apply, val_main_v51_apply, val_main_cst_4_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62, Ideal.subf_def, Ideal.mulf_def, Ideal.addf_def, Ideal.hostDivf_def, Ideal.ofBits_def, Ideal.maximumf_def, Ideal.hostUnary_sqrt_def]
  rfl

/-! ## The activation -/

theorem act_apply (P : Fin 40000) (n : Fin 32) (o : Fin 64) :
    val_main_v64 (F := Ideal) x0 x1 x2 x3 x4 x5 x6 x7 (ix3 P n o) = actR x0 x1 x2 x3 x4 x5 x6 x7 P n o := by
  simp only [val_main_v64_apply, val_main_call0_v0_apply, val_main_call0_cst_apply, val_main_v63_apply, val_main_v62_apply, val_main_v61_apply, val_main_v60_apply, val_main_v59_apply, val_main_v58_apply, val_main_v57_apply, val_main_v56_apply, val_main_v55_apply, val_main_v50_apply, val_main_v49_apply, n_idx_main_v1, n_idx_main_v2, n_idx_main_v3, n_idx_main_v4, n_idx_main_v5, n_idx_main_v7, n_idx_main_v8, n_idx_main_v10, n_idx_main_v11, n_idx_main_v13, n_idx_main_v18, n_idx_main_v19, n_idx_main_v21, n_idx_main_v26, n_idx_main_v27, n_idx_main_v28, n_idx_main_v30, n_idx_main_v31, n_idx_main_v32, n_idx_main_v34, n_idx_main_v35, n_idx_main_v36, n_idx_main_v37, n_idx_main_v38, n_idx_main_v41, n_idx_main_v42, n_idx_main_v43, n_idx_main_v44, n_idx_main_v47, n_idx_main_v48, n_lidx_main_v50, n_ridx_main_v50, n_idx_main_v55, n_idx_main_v56, n_idx_main_v58, n_idx_main_v59, n_idx_main_v61, n_idx_main_v62, Ideal.subf_def, Ideal.mulf_def, Ideal.addf_def, Ideal.hostDivf_def, Ideal.ofBits_def, Ideal.maximumf_def, Ideal.hostUnary_sqrt_def,
    Ideal.ofBits_zero_f32, feat_apply, mask_apply, scale_apply]
  rfl

/-! ## The result -/

theorem lift_point (h : S40000x32x64.Reduces [1] S40000x64) (P : Fin 40000) (o : Fin 64) (n : Fin 32) :
    h.lift (ix2 P o) n = ix3 P n o :=
  funext fun a => match a with | ⟨0, _⟩ => Fin.ext rfl | ⟨1, _⟩ => Fin.ext rfl | ⟨2, _⟩ => Fin.ext rfl

set_option backward.isDefEq.respectTransparency.types false in
/-- The reference's result at `(P, o)`: the maximum over the slots, from `-∞`, of the activations. -/
theorem out_apply (P : Fin 40000) (o : Fin 64) :
    val_main_v65 (F := Ideal) x0 x1 x2 x3 x4 x5 x6 x7 (ix2 P o) = pooledOf (actR x0 x1 x2 x3 x4 x5 x6 x7) P o := by
  unfold val_main_v65
  refine (Host.reduce_eq_fold_single FloatOps.maximumf _ _ _ (by decide) _ (ix2 P o)).trans ?_
  unfold pooledOf
  refine congrArg (fun f => Finset.fold max (Ideal.ofBits .f32 0xFF800000#32) f Finset.univ) (funext fun (n : Fin 32) => ?_)
  rw [Function.comp_apply, lift_point _ P o n]
  exact act_apply x0 x1 x2 x3 x4 x5 x6 x7 P n o

end Cert.ReferenceIdeal.Stages

end
-- ==== Proof.InputDomain.lean ====
/-
  What the precondition says of the inputs. It is stated as a program: for each float input, `all(|x| < +∞)`, and for
  the variances also `all(σ² ≥ 0)`, the seven answers joined by `and`; the claim assumes the result is 1. Read back:
  every element of every float input is a real number, and no variance is negative.
-/
import proofs.«127579_j42107859370580_2_alg».proof.Pre_finite_inputs
import proofs.«127579_j42107859370580_2_alg».proof.Proof.PillarSpec
import Idealize.ShloMosaic.Lib.ReduceAll
import Idealize.ShloMosaic.PureOps.Ideal.Laws

noncomputable section

namespace Cert.Pillar.Domain

open Cert.Pre_finite_inputs Cert.Pre_finite_inputs.Facts Idealize.ShloMosaic Idealize.ShloMosaic.ValueIdx Cert.Pillar

/-- A decided condition that came out 1 holds. -/
theorem of_ofBool_decide {p : Prop} [Decidable p] (h : BitVec.ofBool (decide p) = 1#1) : p := by
  by_contra hn
  rw [decide_eq_false hn] at h
  exact absurd h (by decide)

/-- `|x| < +∞`: `x` is a real number. -/
theorem real_of_abs_lt_inf (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  have hlt : max x (-x) < ⊤ := of_ofBool_decide h
  have h1 : x ≠ ⊤ := ne_top_of_lt (lt_of_le_of_lt (le_max_left _ _) hlt)
  have h2 : x ≠ ⊥ := fun e => by
    have : -x ≠ ⊤ := ne_top_of_lt (lt_of_le_of_lt (le_max_right _ _) hlt)
    exact this (by rw [e]; rfl)
  exact ⟨x.toReal, (EReal.coe_toReal h1 h2).symm⟩

/-- `x ≥ 0`. -/
theorem nonneg_of_ge_zero (x : EReal) (h : Ideal.cmp .oge x (Ideal.ofBits .f32 0x00000000#32) = 1#1) : 0 ≤ x := by
  rw [Ideal.ofBits_zero_f32] at h
  exact of_ofBool_decide h

instance : Subsingleton S_.Idx := ⟨fun a b => funext fun d => d.elim0⟩

/-- The precondition, read back. -/
theorem decode [Cert.Pre_finite_inputs.Facts] (a0 : FVec Ideal S40000x32x4 .f32) (a1 : FVec Ideal S64x9 .f32)
    (a2 a3 a4 a5 : FVec Ideal S64 .f32) (a6 : IVec S40000 32) (a7 : IVec S40000x4 32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, 0 ≤ a5 i) := by
  have h0 := congrFun h ix0
  unfold fn fn_part1 at h0
  dsimp only at h0
  obtain ⟨h28, hge⟩ := IntOp.andi_eq_one.1 h0
  obtain ⟨h23, hf5⟩ := IntOp.andi_eq_one.1 h28
  obtain ⟨h18, hf4⟩ := IntOp.andi_eq_one.1 h23
  obtain ⟨h13, hf3⟩ := IntOp.andi_eq_one.1 h18
  obtain ⟨h8, hf2⟩ := IntOp.andi_eq_one.1 h13
  obtain ⟨hf0, hf1⟩ := IntOp.andi_eq_one.1 h8
  exact ⟨fun i => real_of_abs_lt_inf _ (Host.reduce_andi_all _ _ _ _ _ hf0 i),
    fun i => real_of_abs_lt_inf _ (Host.reduce_andi_all _ _ _ _ _ hf1 i),
    fun i => real_of_abs_lt_inf _ (Host.reduce_andi_all _ _ _ _ _ hf2 i),
    fun i => real_of_abs_lt_inf _ (Host.reduce_andi_all _ _ _ _ _ hf3 i),
    fun i => real_of_abs_lt_inf _ (Host.reduce_andi_all _ _ _ _ _ hf4 i),
    fun i => real_of_abs_lt_inf _ (Host.reduce_andi_all _ _ _ _ _ hf5 i),
    fun i => nonneg_of_ge_zero _ (Host.reduce_andi_all _ _ _ _ _ hge i)⟩

end Cert.Pillar.Domain

end
-- ==== Proof.lean ====
/-
  Pooled pillar features: a gridded kernel against its array-at-once reference, equal over the extended reals.

  Both programs map 40000 pillars of up to 32 points (x, y, z, intensity) to 64 features per pillar: nine per-point
  features (offsets from the pillar's cell centre and from the pillar's mean point, height, intensity), masked to the
  pillar's point count, through a 9 → 64 linear map, a batch normalisation `γ (x − μ) / √(σ² + ε) + β`, a clip at 0,
  and the maximum over the points. The kernel adds the weights of the two features that occur twice before multiplying,
  folds the normalisation into a scale and a bias computed once, divides the sums by `max(count, 1)`, and works on
  blocks of 400 pillars. Over the reals none of this changes a value; over the extended reals distributivity needs
  finite operands, which the precondition gives for every input, and a finite scale, which needs `σ² + ε > 0`: the
  precondition also asks `σ² ≥ 0` (with `σ² = −ε` the scale is `+∞` and the two normalisations differ).
  The frames: each program runs to the end, faults nowhere and leaves its arguments as they were.
-/
import proofs.«127579_j42107859370580_2_alg».proof.Defs
import proofs.«127579_j42107859370580_2_alg».proof.Proof.Gen.Kernel
import proofs.«127579_j42107859370580_2_alg».proof.Proof.Gen.KernelIdeal
import proofs.«127579_j42107859370580_2_alg».proof.Proof.Gen.ReferenceIdeal
import proofs.«127579_j42107859370580_2_alg».proof.Proof.Gen.Pre_finite_inputs
import proofs.«127579_j42107859370580_2_alg».proof.Proof.Gen.ReferenceIdeal.Run
import proofs.«127579_j42107859370580_2_alg».proof.Proof.KernelRegion
import proofs.«127579_j42107859370580_2_alg».proof.Proof.KernelIdealValue
import proofs.«127579_j42107859370580_2_alg».proof.Proof.RefStages
import proofs.«127579_j42107859370580_2_alg».proof.Proof.InputDomain
import Idealize.ShloMosaic.Adequacy
import Idealize.ShloMosaic.Init

noncomputable section

namespace Cert.Proof

open Idealize.ShloMosaic Idealize.ShloMosaic.TcCoe Idealize.ShloMosaic.ValueIdx Idealize.SL.Sem Cert.Pillar

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From agreeing arguments the kernel's result array ends at the folded form of the pooled features, the reference's at
    the reference form, and under the precondition the two forms are one function. -/
theorem algebraic : Cert.algebraic_KernelIdeal_ReferenceIdeal := by
  intro m ρ m' ρ' hpre hagree
  refine ⟨fun c => Cert.KernelIdeal.Pooled.pooledKernel m c, Cert.KernelIdeal.Pooled.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7⟩ := hagree c
  obtain ⟨r0, r1, r2, r3, r4, r5, r5pos⟩ := Cert.Pillar.Domain.decode _ _ _ _ _ _ _ _ (hpre c)
  rw [(h c).1, Cert.ReferenceIdeal.Read.val_main_v65_eq, e0, e1, e2, e3, e4, e5, e6, e7]
  funext i
  obtain ⟨P, o, rfl⟩ : ∃ (P : Fin 40000) (o : Fin 64), i = ix2 P o := ⟨i 0, i 1, eq_ix2 i⟩
  rw [Cert.ReferenceIdeal.Stages.out_apply]
  unfold Cert.KernelIdeal.Pooled.pooledKernel pooledOf
  refine congrArg (fun f => Finset.fold max (Ideal.ofBits .f32 0xFF800000#32) f Finset.univ) (funext fun n => ?_)
  exact (actK_eq_actR _ _ _ _ _ _ _ _ r0 r1 r2 r3 r4 r5 r5pos P n o).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
